-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5120000x3 : Shape := ⟨2, ![5120000, 3]⟩
abbrev S5120000x4 : Shape := ⟨2, ![5120000, 4]⟩
abbrev S_ : Shape := ⟨0, ![]⟩
abbrev S5120000 : Shape := ⟨1, ![5120000]⟩

class Facts : Prop where
  bcast_S_S5120000x3 : S_.BroadcastsInDim S5120000x3 (![] : Fin 0 → Fin S5120000x3.rank)
  reducesTo_S5120000x3_S_d0_1 : S5120000x3.ReducesTo [0, 1] S_
  h_S_ : 0 < S_.numel
  bcast_S_S5120000x4 : S_.BroadcastsInDim S5120000x4 (![] : Fin 0 → Fin S5120000x4.rank)
  reducesTo_S5120000x4_S_d0_1 : S5120000x4.ReducesTo [0, 1] S_
  reducesTo_S5120000x4_S5120000_d1 : S5120000x4.ReducesTo [1] S5120000
  bcast_S_S5120000 : S_.BroadcastsInDim S5120000 (![] : Fin 0 → Fin S5120000.rank)
  reducesTo_S5120000_S_d0 : S5120000.ReducesTo [0] S_

variable [Facts]

def fn {F : FTy → Type} [FloatOps F] (main_arg0 : FVec F S5120000x3 .f32) (main_arg1 : FVec F S5120000x4 .f32) : IVec S_ 1 :=
  let main_v0 : FVec F S5120000x3 .f32 := Host.absf main_arg0
  let main_cst : FVec F S_ .f32 := constant S_ .f32 0x7F800000#32
  let main_v1 : FVec F S5120000x3 .f32 := broadcastInDim S5120000x3 ![] bcast_S_S5120000x3 main_cst
  let main_v2 : IVec S5120000x3 1 := cmpf .olt main_v0 main_v1
  let main_c : IVec S_ 1 := constantI S_ 1 1#1
  let main_v3 : IVec S_ 1 := (fun x v => Host.reduce IntOp.andi x v reducesTo_S5120000x3_S_d0_1 h_S_) main_v2 main_c
  let main_v4 : FVec F S5120000x4 .f32 := Host.absf main_arg1
  let main_cst_0 : FVec F S_ .f32 := constant S_ .f32 0x7F800000#32
  let main_v5 : FVec F S5120000x4 .f32 := broadcastInDim S5120000x4 ![] bcast_S_S5120000x4 main_cst_0
  let main_v6 : IVec S5120000x4 1 := cmpf .olt main_v4 main_v5
  let main_c_1 : IVec S_ 1 := constantI S_ 1 1#1
  let main_v7 : IVec S_ 1 := (fun x v => Host.reduce IntOp.andi x v reducesTo_S5120000x4_S_d0_1 h_S_) main_v6 main_c_1
  let main_v8 : IVec S_ 1 := andi main_v3 main_v7
  let main_v9 : FVec F S5120000x4 .f32 := mulf main_arg1 main_arg1
  let main_cst_2 : FVec F S_ .f32 := constant S_ .f32 0x00000000#32
  let main_v10 : FVec F S5120000 .f32 := (fun x v => Host.reduceAdd x v reducesTo_S5120000x4_S5120000_d1 h_S_) main_v9 main_cst_2
  let main_cst_3 : FVec F S_ .f32 := constant S_ .f32 0x00000000#32
  let main_v11 : FVec F S5120000 .f32 := broadcastInDim S5120000 ![] bcast_S_S5120000 main_cst_3
  let main_v12 : IVec S5120000 1 := cmpf .ogt main_v10 main_v11
  let main_c_4 : IVec S_ 1 := constantI S_ 1 1#1
  let main_v13 : IVec S_ 1 := (fun x v => Host.reduce IntOp.andi x v reducesTo_S5120000_S_d0 h_S_) main_v12 main_c_4
  let main_v14 : IVec S_ 1 := andi main_v8 main_v13
  main_v14
-- ==== Kernel.lean ====
abbrev S5120000x3 : Shape := ⟨2, ![5120000, 3]⟩
abbrev S5120000x4 : Shape := ⟨2, ![5120000, 4]⟩
abbrev S3x5120000 : Shape := ⟨2, ![3, 5120000]⟩
abbrev S4x5120000 : Shape := ⟨2, ![4, 5120000]⟩
abbrev S6x5120000 : Shape := ⟨2, ![6, 5120000]⟩
abbrev S3x128000 : Shape := ⟨2, ![3, 128000]⟩
abbrev S4x128000 : Shape := ⟨2, ![4, 128000]⟩
abbrev S6x128000 : Shape := ⟨2, ![6, 128000]⟩
abbrev S1x128000 : Shape := ⟨2, ![1, 128000]⟩
abbrev S128000 : Shape := ⟨1, ![128000]⟩
abbrev S5120000x6 : Shape := ⟨2, ![5120000, 6]⟩

abbrev nBuf : Space → Nat
  | .hbm => 6
  | .vmem => 6
  | .smem => 0
  | _ => 0

abbrev bufTy : (tb : Table) → Fin (tcTables nBuf tb) → BufTy
  | .hbm, ⟨0, _⟩ => ⟨S5120000x3, .f32⟩
  | .hbm, ⟨1, _⟩ => ⟨S5120000x4, .f32⟩
  | .hbm, ⟨2, _⟩ => ⟨S3x5120000, .f32⟩
  | .hbm, ⟨3, _⟩ => ⟨S4x5120000, .f32⟩
  | .hbm, ⟨4, _⟩ => ⟨S6x5120000, .f32⟩
  | .hbm, ⟨5, _⟩ => ⟨S5120000x6, .f32⟩
  | .local _ .vmem, ⟨0, _⟩ => ⟨S3x128000, .f32⟩
  | .local _ .vmem, ⟨1, _⟩ => ⟨S3x128000, .f32⟩
  | .local _ .vmem, ⟨2, _⟩ => ⟨S4x128000, .f32⟩
  | .local _ .vmem, ⟨3, _⟩ => ⟨S4x128000, .f32⟩
  | .local _ .vmem, ⟨4, _⟩ => ⟨S6x128000, .f32⟩
  | .local _ .vmem, ⟨5, _⟩ => ⟨S6x128000, .f32⟩
  | _, _ => ⟨S5120000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S5120000x3_S3x5120000_1_0 : S5120000x3.Transposes [1, 0] S3x5120000
  transposes_S5120000x4_S4x5120000_1_0 : S5120000x4.Transposes [1, 0] S4x5120000
  inb_S3x128000_S1x128000_0_0 : ∀ a, (![0, 0] : Fin 2 → Nat) a + S1x128000.size a ≤ S3x128000.size a
  h_S1x128000 : 0 < S1x128000.numel
  shapeCasts_S1x128000_S128000 : S1x128000.ShapeCasts S128000
  inb_S3x128000_S1x128000_1_0 : ∀ a, (![1, 0] : Fin 2 → Nat) a + S1x128000.size a ≤ S3x128000.size a
  inb_S3x128000_S1x128000_2_0 : ∀ a, (![2, 0] : Fin 2 → Nat) a + S1x128000.size a ≤ S3x128000.size a
  inb_S4x128000_S1x128000_0_0 : ∀ a, (![0, 0] : Fin 2 → Nat) a + S1x128000.size a ≤ S4x128000.size a
  inb_S4x128000_S1x128000_1_0 : ∀ a, (![1, 0] : Fin 2 → Nat) a + S1x128000.size a ≤ S4x128000.size a
  inb_S4x128000_S1x128000_2_0 : ∀ a, (![2, 0] : Fin 2 → Nat) a + S1x128000.size a ≤ S4x128000.size a
  inb_S4x128000_S1x128000_3_0 : ∀ a, (![3, 0] : Fin 2 → Nat) a + S1x128000.size a ≤ S4x128000.size a
  inb_S6x128000_S1x128000_0_0 : ∀ a, (![0, 0] : Fin 2 → Nat) a + S1x128000.size a ≤ S6x128000.size a
  shapeCasts_S128000_S1x128000 : S128000.ShapeCasts S1x128000
  inb_S6x128000_S1x128000_1_0 : ∀ a, (![1, 0] : Fin 2 → Nat) a + S1x128000.size a ≤ S6x128000.size a
  inb_S6x128000_S1x128000_2_0 : ∀ a, (![2, 0] : Fin 2 → Nat) a + S1x128000.size a ≤ S6x128000.size a
  inb_S6x128000_S1x128000_3_0 : ∀ a, (![3, 0] : Fin 2 → Nat) a + S1x128000.size a ≤ S6x128000.size a
  inb_S6x128000_S1x128000_4_0 : ∀ a, (![4, 0] : Fin 2 → Nat) a + S1x128000.size a ≤ S6x128000.size a
  inb_S6x128000_S1x128000_5_0 : ∀ a, (![5, 0] : Fin 2 → Nat) a + S1x128000.size a ≤ S6x128000.size a
  transposes_S6x5120000_S5120000x6_1_0 : S6x5120000.Transposes [1, 0] S5120000x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128000.size a ≤ S3x5120000.size a
  hwx0_0 : ∀ i : grid0.Coords, EltTy.bits .f32 = 32 ∨ (Rect.block (s := S3x5120000) S3x128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128000.size a ≤ S4x5120000.size a
  hwx0_1 : ∀ i : grid0.Coords, EltTy.bits .f32 = 32 ∨ (Rect.block (s := S4x5120000) S4x128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x128000.size a ≤ S6x5120000.size a
  hwx0_2 : ∀ i : grid0.Coords, EltTy.bits .f32 = 32 ∨ (Rect.block (s := S6x5120000) S6x128000.size (cc0_transform_2 i) (hinb0_2 i)).WholeWords (EltTy.packing .f32)

variable [Facts₀]

abbrev win0_0 : Pipeline.Window sig grid0 :=
  Pipeline.Window.ofSpec (Memref.whole main_v0) S3x128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6x128000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5120000x3 : Shape := ⟨2, ![5120000, 3]⟩
abbrev S5120000x4 : Shape := ⟨2, ![5120000, 4]⟩
abbrev S_ : Shape := ⟨0, ![]⟩
abbrev S5120000 : Shape := ⟨1, ![5120000]⟩
abbrev S5120000x1 : Shape := ⟨2, ![5120000, 1]⟩
abbrev S5120000x9 : Shape := ⟨2, ![5120000, 9]⟩
abbrev S5120000x3x3 : Shape := ⟨3, ![5120000, 3, 3]⟩
abbrev S5120000x1x3 : Shape := ⟨3, ![5120000, 1, 3]⟩
abbrev S5120000x1x1 : Shape := ⟨3, ![5120000, 1, 1]⟩
abbrev S5120000x6 : Shape := ⟨2, ![5120000, 6]⟩

abbrev nBuf : Space → Nat
  | .hbm => 114
  | .vmem => 0
  | .smem => 0
  | _ => 0

abbrev bufTy : (tb : Table) → Fin (tcTables nBuf tb) → BufTy
  | .hbm, ⟨0, _⟩ => ⟨S5120000x3, .f32⟩
  | .hbm, ⟨1, _⟩ => ⟨S5120000x4, .f32⟩
  | .hbm, ⟨2, _⟩ => ⟨S5120000x4, .f32⟩
  | .hbm, ⟨3, _⟩ => ⟨S_, .f32⟩
  | .hbm, ⟨4, _⟩ => ⟨S5120000, .f32⟩
  | .hbm, ⟨5, _⟩ => ⟨S5120000x1, .f32⟩
  | .hbm, ⟨6, _⟩ => ⟨S5120000x1, .f32⟩
  | .hbm, ⟨7, _⟩ => ⟨S5120000x4, .f32⟩
  | .hbm, ⟨8, _⟩ => ⟨S5120000x4, .f32⟩
  | .hbm, ⟨9, _⟩ => ⟨S5120000x1, .f32⟩
  | .hbm, ⟨10, _⟩ => ⟨S5120000, .f32⟩
  | .hbm, ⟨11, _⟩ => ⟨S5120000x1, .f32⟩
  | .hbm, ⟨12, _⟩ => ⟨S5120000, .f32⟩
  | .hbm, ⟨13, _⟩ => ⟨S5120000x1, .f32⟩
  | .hbm, ⟨14, _⟩ => ⟨S5120000, .f32⟩
  | .hbm, ⟨15, _⟩ => ⟨S5120000x1, .f32⟩
  | .hbm, ⟨16, _⟩ => ⟨S5120000, .f32⟩
  | .hbm, ⟨17, _⟩ => ⟨S5120000, .f32⟩
  | .hbm, ⟨18, _⟩ => ⟨S5120000, .f32⟩
  | .hbm, ⟨19, _⟩ => ⟨S5120000, .f32⟩
  | .hbm, ⟨20, _⟩ => ⟨S_, .f32⟩
  | .hbm, ⟨21, _⟩ => ⟨S5120000, .f32⟩
  | .hbm, ⟨22, _⟩ => ⟨S5120000, .f32⟩
  | .hbm, ⟨23, _⟩ => ⟨S_, .f32⟩
  | .hbm, ⟨24, _⟩ => ⟨S5120000, .f32⟩
  | .hbm, ⟨25, _⟩ => ⟨S5120000, .f32⟩
  | .hbm, ⟨26, _⟩ => ⟨S5120000, .f32⟩
  | .hbm, ⟨27, _⟩ => ⟨S5120000, .f32⟩
  | .hbm, ⟨28, _⟩ => ⟨S5120000, .f32⟩
  | .hbm, ⟨29, _⟩ => ⟨S_, .f32⟩
  | .hbm, ⟨30, _⟩ => ⟨S5120000, .f32⟩
  | .hbm, ⟨31, _⟩ => ⟨S5120000, .f32⟩
  | .hbm, ⟨32, _⟩ => ⟨S5120000, .f32⟩
  | .hbm, ⟨33, _⟩ => ⟨S5120000, .f32⟩
  | .hbm, ⟨34, _⟩ => ⟨S5120000, .f32⟩
  | .hbm, ⟨35, _⟩ => ⟨S_, .f32⟩
  | .hbm, ⟨36, _⟩ => ⟨S5120000, .f32⟩
  | .hbm, ⟨37, _⟩ => ⟨S5120000, .f32⟩
  | .hbm, ⟨38, _⟩ => ⟨S5120000, .f32⟩
  | .hbm, ⟨39, _⟩ => ⟨S5120000, .f32⟩
  | .hbm, ⟨40, _⟩ => ⟨S5120000, .f32⟩
  | .hbm, ⟨41, _⟩ => ⟨S_, .f32⟩
  | .hbm, ⟨42, _⟩ => ⟨S5120000, .f32⟩
  | .hbm, ⟨43, _⟩ => ⟨S5120000, .f32⟩
  | .hbm, ⟨44, _⟩ => ⟨S5120000, .f32⟩
  | .hbm, ⟨45, _⟩ => ⟨S5120000, .f32⟩
  | .hbm, ⟨46, _⟩ => ⟨S5120000, .f32⟩
  | .hbm, ⟨47, _⟩ => ⟨S_, .f32⟩
  | .hbm, ⟨48, _⟩ => ⟨S5120000, .f32⟩
  | .hbm, ⟨49, _⟩ => ⟨S5120000, .f32⟩
  | .hbm, ⟨50, _⟩ => ⟨S_, .f32⟩
  | .hbm, ⟨51, _⟩ => ⟨S5120000, .f32⟩
  | .hbm, ⟨52, _⟩ => ⟨S5120000, .f32⟩
  | .hbm, ⟨53, _⟩ => ⟨S5120000, .f32⟩
  | .hbm, ⟨54, _⟩ => ⟨S5120000, .f32⟩
  | .hbm, ⟨55, _⟩ => ⟨S5120000, .f32⟩
  | .hbm, ⟨56, _⟩ => ⟨S_, .f32⟩
  | .hbm, ⟨57, _⟩ => ⟨S5120000, .f32⟩
  | .hbm, ⟨58, _⟩ => ⟨S5120000, .f32⟩
  | .hbm, ⟨59, _⟩ => ⟨S5120000, .f32⟩
  | .hbm, ⟨60, _⟩ => ⟨S5120000, .f32⟩
  | .hbm, ⟨61, _⟩ => ⟨S5120000, .f32⟩
  | .hbm, ⟨62, _⟩ => ⟨S_, .f32⟩
  | .hbm, ⟨63, _⟩ => ⟨S5120000, .f32⟩
  | .hbm, ⟨64, _⟩ => ⟨S5120000, .f32⟩
  | .hbm, ⟨65, _⟩ => ⟨S5120000, .f32⟩
  | .hbm, ⟨66, _⟩ => ⟨S5120000, .f32⟩
  | .hbm, ⟨67, _⟩ => ⟨S5120000, .f32⟩
  | .hbm, ⟨68, _⟩ => ⟨S_, .f32⟩
  | .hbm, ⟨69, _⟩ => ⟨S5120000, .f32⟩
  | .hbm, ⟨70, _⟩ => ⟨S5120000, .f32⟩
  | .hbm, ⟨71, _⟩ => ⟨S5120000, .f32⟩
  | .hbm, ⟨72, _⟩ => ⟨S5120000, .f32⟩
  | .hbm, ⟨73, _⟩ => ⟨S5120000, .f32⟩
  | .hbm, ⟨74, _⟩ => ⟨S_, .f32⟩
  | .hbm, ⟨75, _⟩ => ⟨S5120000, .f32⟩
  | .hbm, ⟨76, _⟩ => ⟨S5120000, .f32⟩
  | .hbm, ⟨77, _⟩ => ⟨S_, .f32⟩
  | .hbm, ⟨78, _⟩ => ⟨S5120000, .f32⟩
  | .hbm, ⟨79, _⟩ => ⟨S5120000, .f32⟩
  | .hbm, ⟨80, _⟩ => ⟨S5120000x1, .f32⟩
  | .hbm, ⟨81, _⟩ => ⟨S5120000x1, .f32⟩
  | .hbm, ⟨82, _⟩ => ⟨S5120000x1, .f32⟩
  | .hbm, ⟨83, _⟩ => ⟨S5120000x1, .f32⟩
  | .hbm, ⟨84, _⟩ => ⟨S5120000x1, .f32⟩
  | .hbm, ⟨85, _⟩ => ⟨S5120000x1, .f32⟩
  | .hbm, ⟨86, _⟩ => ⟨S5120000x1, .f32⟩
  | .hbm, ⟨87, _⟩ => ⟨S5120000x1, .f32⟩
  | .hbm, ⟨88, _⟩ => ⟨S5120000x1, .f32⟩
  | .hbm, ⟨89, _⟩ => ⟨S5120000x9, .f32⟩
  | .hbm, ⟨90, _⟩ => ⟨S5120000x3x3, .f32⟩
  | .hbm, ⟨91, _⟩ => ⟨S5120000x1x3, .f32⟩
  | .hbm, ⟨92, _⟩ => ⟨S5120000x3x3, .f32⟩
  | .hbm, ⟨93, _⟩ => ⟨S5120000x3x3, .f32⟩
  | .hbm, ⟨94, _⟩ => ⟨S5120000x3x3, .f32⟩
  | .hbm, ⟨95, _⟩ => ⟨S5120000x1x1, .f32⟩
  | .hbm, ⟨96, _⟩ => ⟨S5120000, .f32⟩
  | .hbm, ⟨97, _⟩ => ⟨S5120000x1x1, .f32⟩
  | .hbm, ⟨98, _⟩ => ⟨S5120000, .f32⟩
  | .hbm, ⟨99, _⟩ => ⟨S5120000x1x1, .f32⟩
  | .hbm, ⟨100, _⟩ => ⟨S5120000, .f32⟩
  | .hbm, ⟨101, _⟩ => ⟨S5120000x1x1, .f32⟩
  | .hbm, ⟨102, _⟩ => ⟨S5120000, .f32⟩
  | .hbm, ⟨103, _⟩ => ⟨S5120000x1x1, .f32⟩
  | .hbm, ⟨104, _⟩ => ⟨S5120000, .f32⟩
  | .hbm, ⟨105, _⟩ => ⟨S5120000x1x1, .f32⟩
  | .hbm, ⟨106, _⟩ => ⟨S5120000, .f32⟩
  | .hbm, ⟨107, _⟩ => ⟨S5120000x1, .f32⟩
  | .hbm, ⟨108, _⟩ => ⟨S5120000x1, .f32⟩
  | .hbm, ⟨109, _⟩ => ⟨S5120000x1, .f32⟩
  | .hbm, ⟨110, _⟩ => ⟨S5120000x1, .f32⟩
  | .hbm, ⟨111, _⟩ => ⟨S5120000x1, .f32⟩
  | .hbm, ⟨112, _⟩ => ⟨S5120000x1, .f32⟩
  | .hbm, ⟨113, _⟩ => ⟨S5120000x6, .f32⟩
  | _, _ => ⟨S5120000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_9 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_10 : Ref sig .tc := ⟨.hbm, 74, rfl⟩
abbrev main_v61 : Ref sig .tc := ⟨.hbm, 75, rfl⟩
abbrev main_v62 : Ref sig .tc := ⟨.hbm, 76, rfl⟩
abbrev main_cst_11 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩

abbrev nD : Nat := 1
abbrev τ : Topo := Topo.v7x

variable {F : FTy → Type} [FloatOps F]

class Facts₀ : Prop where
  reducesTo_S5120000x4_S5120000_d1 : S5120000x4.ReducesTo [1] S5120000
  h_S_ : 0 < S_.numel
  bcast_S5120000_S5120000x1_0 : S5120000.BroadcastsInDim S5120000x1 (![0] : Fin 1 → Fin S5120000x1.rank)
  bcast_S5120000x1_S5120000x4_0_1 : S5120000x1.BroadcastsInDim S5120000x4 (![0, 1] : Fin 2 → Fin S5120000x4.rank)
  slices_S5120000x4_S5120000x1_0_0 : S5120000x4.Slices ![0, 0] S5120000x1
  shapeCasts_S5120000x1_S5120000 : S5120000x1.ShapeCasts S5120000
  slices_S5120000x4_S5120000x1_0_1 : S5120000x4.Slices ![0, 1] S5120000x1
  slices_S5120000x4_S5120000x1_0_2 : S5120000x4.Slices ![0, 2] S5120000x1
  slices_S5120000x4_S5120000x1_0_3 : S5120000x4.Slices ![0, 3] S5120000x1
  bcast_S_S5120000 : S_.BroadcastsInDim S5120000 (![] : Fin 0 → Fin S5120000.rank)
  concatenates_S5120000x1_S5120000x1_S5120000x1_S5120000x1_S5120000x1_S5120000x1_S5120000x1_S5120000x1_S5120000x1_S5120000x9_d1 : Shape.Concatenates [S5120000x1, S5120000x1, S5120000x1, S5120000x1, S5120000x1, S5120000x1, S5120000x1, S5120000x1, S5120000x1] S5120000x9 1
  shapeCasts_S5120000x9_S5120000x3x3 : S5120000x9.ShapeCasts S5120000x3x3
  bcast_S5120000x3_S5120000x1x3_0_2 : S5120000x3.BroadcastsInDim S5120000x1x3 (![0, 2] : Fin 2 → Fin S5120000x1x3.rank)
  bcast_S5120000x1x3_S5120000x3x3_0_1_2 : S5120000x1x3.BroadcastsInDim S5120000x3x3 (![0, 1, 2] : Fin 3 → Fin S5120000x3x3.rank)
  slices_S5120000x3x3_S5120000x1x1_0_0_0 : S5120000x3x3.Slices ![0, 0, 0] S5120000x1x1
  shapeCasts_S5120000x1x1_S5120000 : S5120000x1x1.ShapeCasts S5120000
  slices_S5120000x3x3_S5120000x1x1_0_0_1 : S5120000x3x3.Slices ![0, 0, 1] S5120000x1x1
  slices_S5120000x3x3_S5120000x1x1_0_0_2 : S5120000x3x3.Slices ![0, 0, 2] S5120000x1x1
  slices_S5120000x3x3_S5120000x1x1_0_1_1 : S5120000x3x3.Slices ![0, 1, 1] S5120000x1x1
  slices_S5120000x3x3_S5120000x1x1_0_1_2 : S5120000x3x3.Slices ![0, 1, 2] S5120000x1x1
  slices_S5120000x3x3_S5120000x1x1_0_2_2 : S5120000x3x3.Slices ![0, 2, 2] S5120000x1x1
  concatenates_S5120000x1_S5120000x1_S5120000x1_S5120000x1_S5120000x1_S5120000x1_S5120000x6_d1 : Shape.Concatenates [S5120000x1, S5120000x1, S5120000x1, S5120000x1, S5120000x1, S5120000x1] S5120000x6 1
  dot_S5120000x3x3_S5120000x3x3_S5120000x3x3_2_2_1_1_0_0_wf : DotDims.WF S5120000x3x3 S5120000x3x3 S5120000x3x3 [2] [2] [1] [1] [0] [0]

variable [Facts₀]

def dot_S5120000x3x3_S5120000x3x3_S5120000x3x3_2_2_1_1_0_0 : DotDims S5120000x3x3 S5120000x3x3 S5120000x3x3 where
  lhsContracting := [2]
  rhsContracting := [2]
  lhsNonContracting := [1]
  rhsNonContracting := [1]
  lhsBatch := [0]
  rhsBatch := [0]
  wf := dot_S5120000x3x3_S5120000x3x3_S5120000x3x3_2_2_1_1_0_0_wf

class Facts : Prop extends Facts₀ where

variable [Facts]
-- ==== Proof.RefRun.lean ====
/-
  The reference program's run, read in five stages.

  The reference is a straight line of 112 array operations. Its result is read off stage by stage, each stage a
  function of the few arrays it takes from the stage before:
    1. the quaternion array with every row divided by the square root of the sum of its squares (`normed`);
    2. its four columns as vectors (`col0` … `col3`);
    3. the nine rotation entries from those vectors, stacked and read as 3 by 3, each column scaled (`scaledRot`);
    4. that array contracted with itself over its column index (`gram`);
    5. the six upper-triangle entries, stacked (`upper`).
  What a stage leaves in its result array, from ANY contents before it, is its function of those contents at the
  arrays it reads (the `stageK` lemmas); the whole line is the five stages in sequence, so the result is the
  composition `upper (gram (scaledRot (col0 (normed q)) … s))` of the argument arrays `q` and `s`.
-/
import proofs.«105443_j4088808866444_2_alg».proof.Proof.Gen.ReferenceIdeal
import Idealize.ShloMosaic.Lib.StableHlo.Run
import Idealize.ShloMosaic.Lib.Pipeline.Frame

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The program's 112 operations, in order. -/
abbrev ops : List (HloOp τ sig (Elt F)) :=
  [ binary main_arg1 main_arg1 main_v0 (mulf : (⟨S5120000x4, .f32⟩ : BufTy).Contents (Elt F) → (⟨S5120000x4, .f32⟩ : BufTy).Contents (Elt F) → (⟨S5120000x4, .f32⟩ : BufTy).Contents (Elt F)),
    nullary main_cst (constant S_ .f32 0x00000000#32),
    binary main_v0 main_cst main_v1 ((fun x v => Host.reduceAdd x v reducesTo_S5120000x4_S5120000_d1 h_S_) : (⟨S5120000x4, .f32⟩ : BufTy).Contents (Elt F) → (⟨S_, .f32⟩ : BufTy).Contents (Elt F) → (⟨S5120000, .f32⟩ : BufTy).Contents (Elt F)),
    unary main_v1 main_v2 (broadcastInDim S5120000x1 ![0] bcast_S5120000_S5120000x1_0 : (⟨S5120000, .f32⟩ : BufTy).Contents (Elt F) → (⟨S5120000x1, .f32⟩ : BufTy).Contents (Elt F)),
    unary main_v2 main_v3 (Host.sqrt : (⟨S5120000x1, .f32⟩ : BufTy).Contents (Elt F) → (⟨S5120000x1, .f32⟩ : BufTy).Contents (Elt F)),
    unary main_v3 main_v4 (broadcastInDim S5120000x4 ![0, 1] bcast_S5120000x1_S5120000x4_0_1 : (⟨S5120000x1, .f32⟩ : BufTy).Contents (Elt F) → (⟨S5120000x4, .f32⟩ : BufTy).Contents (Elt F)),
    binary main_arg1 main_v4 main_v5 (Host.divf : (⟨S5120000x4, .f32⟩ : BufTy).Contents (Elt F) → (⟨S5120000x4, .f32⟩ : BufTy).Contents (Elt F) → (⟨S5120000x4, .f32⟩ : BufTy).Contents (Elt F)),
    unary main_v5 main_v6 ((extractStridedSlice S5120000x1 ![0, 0] · slices_S5120000x4_S5120000x1_0_0) : (⟨S5120000x4, .f32⟩ : BufTy).Contents (Elt F) → (⟨S5120000x1, .f32⟩ : BufTy).Contents (Elt F)),
    reshape main_v6 main_v7 rfl shapeCasts_S5120000x1_S5120000,
    unary main_v5 main_v8 ((extractStridedSlice S5120000x1 ![0, 1] · slices_S5120000x4_S5120000x1_0_1) : (⟨S5120000x4, .f32⟩ : BufTy).Contents (Elt F) → (⟨S5120000x1, .f32⟩ : BufTy).Contents (Elt F)),
    reshape main_v8 main_v9 rfl shapeCasts_S5120000x1_S5120000,
    unary main_v5 main_v10 ((extractStridedSlice S5120000x1 ![0, 2] · slices_S5120000x4_S5120000x1_0_2) : (⟨S5120000x4, .f32⟩ : BufTy).Contents (Elt F) → (⟨S5120000x1, .f32⟩ : BufTy).Contents (Elt F)),
    reshape main_v10 main_v11 rfl shapeCasts_S5120000x1_S5120000,
    unary main_v5 main_v12 ((extractStridedSlice S5120000x1 ![0, 3] · slices_S5120000x4_S5120000x1_0_3) : (⟨S5120000x4, .f32⟩ : BufTy).Contents (Elt F) → (⟨S5120000x1, .f32⟩ : BufTy).Contents (Elt F)),
    reshape main_v12 main_v13 rfl shapeCasts_S5120000x1_S5120000,
    binary main_v11 main_v11 main_v14 (mulf : (⟨S5120000, .f32⟩ : BufTy).Contents (Elt F) → (⟨S5120000, .f32⟩ : BufTy).Contents (Elt F) → (⟨S5120000, .f32⟩ : BufTy).Contents (Elt F)),
    binary main_v13 main_v13 main_v15 (mulf : (⟨S5120000, .f32⟩ : BufTy).Contents (Elt F) → (⟨S5120000, .f32⟩ : BufTy).Contents (Elt F) → (⟨S5120000, .f32⟩ : BufTy).Contents (Elt F)),
    binary main_v14 main_v15 main_v16 (addf : (⟨S5120000, .f32⟩ : BufTy).Contents (Elt F) → (⟨S5120000, .f32⟩ : BufTy).Contents (Elt F) → (⟨S5120000, .f32⟩ : BufTy).Contents (Elt F)),
    nullary main_cst_0 (constant S_ .f32 0x40000000#32),
    unary main_cst_0 main_v17 (broadcastInDim S5120000 ![] bcast_S_S5120000 : (⟨S_, .f32⟩ : BufTy).Contents (Elt F) → (⟨S5120000, .f32⟩ : BufTy).Contents (Elt F)),
    binary main_v17 main_v16 main_v18 (mulf : (⟨S5120000, .f32⟩ : BufTy).Contents (Elt F) → (⟨S5120000, .f32⟩ : BufTy).Contents (Elt F) → (⟨S5120000, .f32⟩ : BufTy).Contents (Elt F)),
    nullary main_cst_1 (constant S_ .f32 0x3F800000#32),
    unary main_cst_1 main_v19 (broadcastInDim S5120000 ![] bcast_S_S5120000 : (⟨S_, .f32⟩ : BufTy).Contents (Elt F) → (⟨S5120000, .f32⟩ : BufTy).Contents (Elt F)),
    binary main_v19 main_v18 main_v20 (subf : (⟨S5120000, .f32⟩ : BufTy).Contents (Elt F) → (⟨S5120000, .f32⟩ : BufTy).Contents (Elt F) → (⟨S5120000, .f32⟩ : BufTy).Contents (Elt F)),
    binary main_v9 main_v11 main_v21 (mulf : (⟨S5120000, .f32⟩ : BufTy).Contents (Elt F) → (⟨S5120000, .f32⟩ : BufTy).Contents (Elt F) → (⟨S5120000, .f32⟩ : BufTy).Contents (Elt F)),
    binary main_v7 main_v13 main_v22 (mulf : (⟨S5120000, .f32⟩ : BufTy).Contents (Elt F) → (⟨S5120000, .f32⟩ : BufTy).Contents (Elt F) → (⟨S5120000, .f32⟩ : BufTy).Contents (Elt F)),
    binary main_v21 main_v22 main_v23 (subf : (⟨S5120000, .f32⟩ : BufTy).Contents (Elt F) → (⟨S5120000, .f32⟩ : BufTy).Contents (Elt F) → (⟨S5120000, .f32⟩ : BufTy).Contents (Elt F)),
    nullary main_cst_2 (constant S_ .f32 0x40000000#32),
    unary main_cst_2 main_v24 (broadcastInDim S5120000 ![] bcast_S_S5120000 : (⟨S_, .f32⟩ : BufTy).Contents (Elt F) → (⟨S5120000, .f32⟩ : BufTy).Contents (Elt F)),
    binary main_v24 main_v23 main_v25 (mulf : (⟨S5120000, .f32⟩ : BufTy).Contents (Elt F) → (⟨S5120000, .f32⟩ : BufTy).Contents (Elt F) → (⟨S5120000, .f32⟩ : BufTy).Contents (Elt F)),
    binary main_v9 main_v13 main_v26 (mulf : (⟨S5120000, .f32⟩ : BufTy).Contents (Elt F) → (⟨S5120000, .f32⟩ : BufTy).Contents (Elt F) → (⟨S5120000, .f32⟩ : BufTy).Contents (Elt F)),
    binary main_v7 main_v11 main_v27 (mulf : (⟨S5120000, .f32⟩ : BufTy).Contents (Elt F) → (⟨S5120000, .f32⟩ : BufTy).Contents (Elt F) → (⟨S5120000, .f32⟩ : BufTy).Contents (Elt F)),
    binary main_v26 main_v27 main_v28 (addf : (⟨S5120000, .f32⟩ : BufTy).Contents (Elt F) → (⟨S5120000, .f32⟩ : BufTy).Contents (Elt F) → (⟨S5120000, .f32⟩ : BufTy).Contents (Elt F)),
    nullary main_cst_3 (constant S_ .f32 0x40000000#32),
    unary main_cst_3 main_v29 (broadcastInDim S5120000 ![] bcast_S_S5120000 : (⟨S_, .f32⟩ : BufTy).Contents (Elt F) → (⟨S5120000, .f32⟩ : BufTy).Contents (Elt F)),
    binary main_v29 main_v28 main_v30 (mulf : (⟨S5120000, .f32⟩ : BufTy).Contents (Elt F) → (⟨S5120000, .f32⟩ : BufTy).Contents (Elt F) → (⟨S5120000, .f32⟩ : BufTy).Contents (Elt F)),
    binary main_v9 main_v11 main_v31 (mulf : (⟨S5120000, .f32⟩ : BufTy).Contents (Elt F) → (⟨S5120000, .f32⟩ : BufTy).Contents (Elt F) → (⟨S5120000, .f32⟩ : BufTy).Contents (Elt F)),
    binary main_v7 main_v13 main_v32 (mulf : (⟨S5120000, .f32⟩ : BufTy).Contents (Elt F) → (⟨S5120000, .f32⟩ : BufTy).Contents (Elt F) → (⟨S5120000, .f32⟩ : BufTy).Contents (Elt F)),
    binary main_v31 main_v32 main_v33 (addf : (⟨S5120000, .f32⟩ : BufTy).Contents (Elt F) → (⟨S5120000, .f32⟩ : BufTy).Contents (Elt F) → (⟨S5120000, .f32⟩ : BufTy).Contents (Elt F)),
    nullary main_cst_4 (constant S_ .f32 0x40000000#32),
    unary main_cst_4 main_v34 (broadcastInDim S5120000 ![] bcast_S_S5120000 : (⟨S_, .f32⟩ : BufTy).Contents (Elt F) → (⟨S5120000, .f32⟩ : BufTy).Contents (Elt F)),
    binary main_v34 main_v33 main_v35 (mulf : (⟨S5120000, .f32⟩ : BufTy).Contents (Elt F) → (⟨S5120000, .f32⟩ : BufTy).Contents (Elt F) → (⟨S5120000, .f32⟩ : BufTy).Contents (Elt F)),
    binary main_v9 main_v9 main_v36 (mulf : (⟨S5120000, .f32⟩ : BufTy).Contents (Elt F) → (⟨S5120000, .f32⟩ : BufTy).Contents (Elt F) → (⟨S5120000, .f32⟩ : BufTy).Contents (Elt F)),
    binary main_v13 main_v13 main_v37 (mulf : (⟨S5120000, .f32⟩ : BufTy).Contents (Elt F) → (⟨S5120000, .f32⟩ : BufTy).Contents (Elt F) → (⟨S5120000, .f32⟩ : BufTy).Contents (Elt F)),
    binary main_v36 main_v37 main_v38 (addf : (⟨S5120000, .f32⟩ : BufTy).Contents (Elt F) → (⟨S5120000, .f32⟩ : BufTy).Contents (Elt F) → (⟨S5120000, .f32⟩ : BufTy).Contents (Elt F)),
    nullary main_cst_5 (constant S_ .f32 0x40000000#32),
    unary main_cst_5 main_v39 (broadcastInDim S5120000 ![] bcast_S_S5120000 : (⟨S_, .f32⟩ : BufTy).Contents (Elt F) → (⟨S5120000, .f32⟩ : BufTy).Contents (Elt F)),
    binary main_v39 main_v38 main_v40 (mulf : (⟨S5120000, .f32⟩ : BufTy).Contents (Elt F) → (⟨S5120000, .f32⟩ : BufTy).Contents (Elt F) → (⟨S5120000, .f32⟩ : BufTy).Contents (Elt F)),
    nullary main_cst_6 (constant S_ .f32 0x3F800000#32),
    unary main_cst_6 main_v41 (broadcastInDim S5120000 ![] bcast_S_S5120000 : (⟨S_, .f32⟩ : BufTy).Contents (Elt F) → (⟨S5120000, .f32⟩ : BufTy).Contents (Elt F)),
    binary main_v41 main_v40 main_v42 (subf : (⟨S5120000, .f32⟩ : BufTy).Contents (Elt F) → (⟨S5120000, .f32⟩ : BufTy).Contents (Elt F) → (⟨S5120000, .f32⟩ : BufTy).Contents (Elt F)),
    binary main_v11 main_v13 main_v43 (mulf : (⟨S5120000, .f32⟩ : BufTy).Contents (Elt F) → (⟨S5120000, .f32⟩ : BufTy).Contents (Elt F) → (⟨S5120000, .f32⟩ : BufTy).Contents (Elt F)),
    binary main_v7 main_v9 main_v44 (mulf : (⟨S5120000, .f32⟩ : BufTy).Contents (Elt F) → (⟨S5120000, .f32⟩ : BufTy).Contents (Elt F) → (⟨S5120000, .f32⟩ : BufTy).Contents (Elt F)),
    binary main_v43 main_v44 main_v45 (subf : (⟨S5120000, .f32⟩ : BufTy).Contents (Elt F) → (⟨S5120000, .f32⟩ : BufTy).Contents (Elt F) → (⟨S5120000, .f32⟩ : BufTy).Contents (Elt F)),
    nullary main_cst_7 (constant S_ .f32 0x40000000#32),
    unary main_cst_7 main_v46 (broadcastInDim S5120000 ![] bcast_S_S5120000 : (⟨S_, .f32⟩ : BufTy).Contents (Elt F) → (⟨S5120000, .f32⟩ : BufTy).Contents (Elt F)),
    binary main_v46 main_v45 main_v47 (mulf : (⟨S5120000, .f32⟩ : BufTy).Contents (Elt F) → (⟨S5120000, .f32⟩ : BufTy).Contents (Elt F) → (⟨S5120000, .f32⟩ : BufTy).Contents (Elt F)),
    binary main_v9 main_v13 main_v48 (mulf : (⟨S5120000, .f32⟩ : BufTy).Contents (Elt F) → (⟨S5120000, .f32⟩ : BufTy).Contents (Elt F) → (⟨S5120000, .f32⟩ : BufTy).Contents (Elt F)),
    binary main_v7 main_v11 main_v49 (mulf : (⟨S5120000, .f32⟩ : BufTy).Contents (Elt F) → (⟨S5120000, .f32⟩ : BufTy).Contents (Elt F) → (⟨S5120000, .f32⟩ : BufTy).Contents (Elt F)),
    binary main_v48 main_v49 main_v50 (subf : (⟨S5120000, .f32⟩ : BufTy).Contents (Elt F) → (⟨S5120000, .f32⟩ : BufTy).Contents (Elt F) → (⟨S5120000, .f32⟩ : BufTy).Contents (Elt F)),
    nullary main_cst_8 (constant S_ .f32 0x40000000#32),
    unary main_cst_8 main_v51 (broadcastInDim S5120000 ![] bcast_S_S5120000 : (⟨S_, .f32⟩ : BufTy).Contents (Elt F) → (⟨S5120000, .f32⟩ : BufTy).Contents (Elt F)),
    binary main_v51 main_v50 main_v52 (mulf : (⟨S5120000, .f32⟩ : BufTy).Contents (Elt F) → (⟨S5120000, .f32⟩ : BufTy).Contents (Elt F) → (⟨S5120000, .f32⟩ : BufTy).Contents (Elt F)),
    binary main_v11 main_v13 main_v53 (mulf : (⟨S5120000, .f32⟩ : BufTy).Contents (Elt F) → (⟨S5120000, .f32⟩ : BufTy).Contents (Elt F) → (⟨S5120000, .f32⟩ : BufTy).Contents (Elt F)),
    binary main_v7 main_v9 main_v54 (mulf : (⟨S5120000, .f32⟩ : BufTy).Contents (Elt F) → (⟨S5120000, .f32⟩ : BufTy).Contents (Elt F) → (⟨S5120000, .f32⟩ : BufTy).Contents (Elt F)),
    binary main_v53 main_v54 main_v55 (addf : (⟨S5120000, .f32⟩ : BufTy).Contents (Elt F) → (⟨S5120000, .f32⟩ : BufTy).Contents (Elt F) → (⟨S5120000, .f32⟩ : BufTy).Contents (Elt F)),
    nullary main_cst_9 (constant S_ .f32 0x40000000#32),
    unary main_cst_9 main_v56 (broadcastInDim S5120000 ![] bcast_S_S5120000 : (⟨S_, .f32⟩ : BufTy).Contents (Elt F) → (⟨S5120000, .f32⟩ : BufTy).Contents (Elt F)),
    binary main_v56 main_v55 main_v57 (mulf : (⟨S5120000, .f32⟩ : BufTy).Contents (Elt F) → (⟨S5120000, .f32⟩ : BufTy).Contents (Elt F) → (⟨S5120000, .f32⟩ : BufTy).Contents (Elt F)),
    binary main_v9 main_v9 main_v58 (mulf : (⟨S5120000, .f32⟩ : BufTy).Contents (Elt F) → (⟨S5120000, .f32⟩ : BufTy).Contents (Elt F) → (⟨S5120000, .f32⟩ : BufTy).Contents (Elt F)),
    binary main_v11 main_v11 main_v59 (mulf : (⟨S5120000, .f32⟩ : BufTy).Contents (Elt F) → (⟨S5120000, .f32⟩ : BufTy).Contents (Elt F) → (⟨S5120000, .f32⟩ : BufTy).Contents (Elt F)),
    binary main_v58 main_v59 main_v60 (addf : (⟨S5120000, .f32⟩ : BufTy).Contents (Elt F) → (⟨S5120000, .f32⟩ : BufTy).Contents (Elt F) → (⟨S5120000, .f32⟩ : BufTy).Contents (Elt F)),
    nullary main_cst_10 (constant S_ .f32 0x40000000#32),
    unary main_cst_10 main_v61 (broadcastInDim S5120000 ![] bcast_S_S5120000 : (⟨S_, .f32⟩ : BufTy).Contents (Elt F) → (⟨S5120000, .f32⟩ : BufTy).Contents (Elt F)),
    binary main_v61 main_v60 main_v62 (mulf : (⟨S5120000, .f32⟩ : BufTy).Contents (Elt F) → (⟨S5120000, .f32⟩ : BufTy).Contents (Elt F) → (⟨S5120000, .f32⟩ : BufTy).Contents (Elt F)),
    nullary main_cst_11 (constant S_ .f32 0x3F800000#32),
    unary main_cst_11 main_v63 (broadcastInDim S5120000 ![] bcast_S_S5120000 : (⟨S_, .f32⟩ : BufTy).Contents (Elt F) → (⟨S5120000, .f32⟩ : BufTy).Contents (Elt F)),
    binary main_v63 main_v62 main_v64 (subf : (⟨S5120000, .f32⟩ : BufTy).Contents (Elt F) → (⟨S5120000, .f32⟩ : BufTy).Contents (Elt F) → (⟨S5120000, .f32⟩ : BufTy).Contents (Elt F)),
    unary main_v20 main_v65 (broadcastInDim S5120000x1 ![0] bcast_S5120000_S5120000x1_0 : (⟨S5120000, .f32⟩ : BufTy).Contents (Elt F) → (⟨S5120000x1, .f32⟩ : BufTy).Contents (Elt F)),
    unary main_v25 main_v66 (broadcastInDim S5120000x1 ![0] bcast_S5120000_S5120000x1_0 : (⟨S5120000, .f32⟩ : BufTy).Contents (Elt F) → (⟨S5120000x1, .f32⟩ : BufTy).Contents (Elt F)),
    unary main_v30 main_v67 (broadcastInDim S5120000x1 ![0] bcast_S5120000_S5120000x1_0 : (⟨S5120000, .f32⟩ : BufTy).Contents (Elt F) → (⟨S5120000x1, .f32⟩ : BufTy).Contents (Elt F)),
    unary main_v35 main_v68 (broadcastInDim S5120000x1 ![0] bcast_S5120000_S5120000x1_0 : (⟨S5120000, .f32⟩ : BufTy).Contents (Elt F) → (⟨S5120000x1, .f32⟩ : BufTy).Contents (Elt F)),
    unary main_v42 main_v69 (broadcastInDim S5120000x1 ![0] bcast_S5120000_S5120000x1_0 : (⟨S5120000, .f32⟩ : BufTy).Contents (Elt F) → (⟨S5120000x1, .f32⟩ : BufTy).Contents (Elt F)),
    unary main_v47 main_v70 (broadcastInDim S5120000x1 ![0] bcast_S5120000_S5120000x1_0 : (⟨S5120000, .f32⟩ : BufTy).Contents (Elt F) → (⟨S5120000x1, .f32⟩ : BufTy).Contents (Elt F)),
    unary main_v52 main_v71 (broadcastInDim S5120000x1 ![0] bcast_S5120000_S5120000x1_0 : (⟨S5120000, .f32⟩ : BufTy).Contents (Elt F) → (⟨S5120000x1, .f32⟩ : BufTy).Contents (Elt F)),
    unary main_v57 main_v72 (broadcastInDim S5120000x1 ![0] bcast_S5120000_S5120000x1_0 : (⟨S5120000, .f32⟩ : BufTy).Contents (Elt F) → (⟨S5120000x1, .f32⟩ : BufTy).Contents (Elt F)),
    unary main_v64 main_v73 (broadcastInDim S5120000x1 ![0] bcast_S5120000_S5120000x1_0 : (⟨S5120000, .f32⟩ : BufTy).Contents (Elt F) → (⟨S5120000x1, .f32⟩ : BufTy).Contents (Elt F)),
    nary ![main_v65, main_v66, main_v67, main_v68, main_v69, main_v70, main_v71, main_v72, main_v73] main_v74 (fun u => concatenate S5120000x9 1 [⟨S5120000x1, u 0⟩, ⟨S5120000x1, u 1⟩, ⟨S5120000x1, u 2⟩, ⟨S5120000x1, u 3⟩, ⟨S5120000x1, u 4⟩, ⟨S5120000x1, u 5⟩, ⟨S5120000x1, u 6⟩, ⟨S5120000x1, u 7⟩, ⟨S5120000x1, u 8⟩] concatenates_S5120000x1_S5120000x1_S5120000x1_S5120000x1_S5120000x1_S5120000x1_S5120000x1_S5120000x1_S5120000x1_S5120000x9_d1),
    reshape main_v74 main_v75 rfl shapeCasts_S5120000x9_S5120000x3x3,
    unary main_arg0 main_v76 (broadcastInDim S5120000x1x3 ![0, 2] bcast_S5120000x3_S5120000x1x3_0_2 : (⟨S5120000x3, .f32⟩ : BufTy).Contents (Elt F) → (⟨S5120000x1x3, .f32⟩ : BufTy).Contents (Elt F)),
    unary main_v76 main_v77 (broadcastInDim S5120000x3x3 ![0, 1, 2] bcast_S5120000x1x3_S5120000x3x3_0_1_2 : (⟨S5120000x1x3, .f32⟩ : BufTy).Contents (Elt F) → (⟨S5120000x3x3, .f32⟩ : BufTy).Contents (Elt F)),
    binary main_v75 main_v77 main_v78 (mulf : (⟨S5120000x3x3, .f32⟩ : BufTy).Contents (Elt F) → (⟨S5120000x3x3, .f32⟩ : BufTy).Contents (Elt F) → (⟨S5120000x3x3, .f32⟩ : BufTy).Contents (Elt F)),
    binary main_v78 main_v78 main_v79 ((fun l r => Host.dotGeneral dot_S5120000x3x3_S5120000x3x3_S5120000x3x3_2_2_1_1_0_0 none l r) : (⟨S5120000x3x3, .f32⟩ : BufTy).Contents (Elt F) → (⟨S5120000x3x3, .f32⟩ : BufTy).Contents (Elt F) → (⟨S5120000x3x3, .f32⟩ : BufTy).Contents (Elt F)),
    unary main_v79 main_v80 ((extractStridedSlice S5120000x1x1 ![0, 0, 0] · slices_S5120000x3x3_S5120000x1x1_0_0_0) : (⟨S5120000x3x3, .f32⟩ : BufTy).Contents (Elt F) → (⟨S5120000x1x1, .f32⟩ : BufTy).Contents (Elt F)),
    reshape main_v80 main_v81 rfl shapeCasts_S5120000x1x1_S5120000,
    unary main_v79 main_v82 ((extractStridedSlice S5120000x1x1 ![0, 0, 1] · slices_S5120000x3x3_S5120000x1x1_0_0_1) : (⟨S5120000x3x3, .f32⟩ : BufTy).Contents (Elt F) → (⟨S5120000x1x1, .f32⟩ : BufTy).Contents (Elt F)),
    reshape main_v82 main_v83 rfl shapeCasts_S5120000x1x1_S5120000,
    unary main_v79 main_v84 ((extractStridedSlice S5120000x1x1 ![0, 0, 2] · slices_S5120000x3x3_S5120000x1x1_0_0_2) : (⟨S5120000x3x3, .f32⟩ : BufTy).Contents (Elt F) → (⟨S5120000x1x1, .f32⟩ : BufTy).Contents (Elt F)),
    reshape main_v84 main_v85 rfl shapeCasts_S5120000x1x1_S5120000,
    unary main_v79 main_v86 ((extractStridedSlice S5120000x1x1 ![0, 1, 1] · slices_S5120000x3x3_S5120000x1x1_0_1_1) : (⟨S5120000x3x3, .f32⟩ : BufTy).Contents (Elt F) → (⟨S5120000x1x1, .f32⟩ : BufTy).Contents (Elt F)),
    reshape main_v86 main_v87 rfl shapeCasts_S5120000x1x1_S5120000,
    unary main_v79 main_v88 ((extractStridedSlice S5120000x1x1 ![0, 1, 2] · slices_S5120000x3x3_S5120000x1x1_0_1_2) : (⟨S5120000x3x3, .f32⟩ : BufTy).Contents (Elt F) → (⟨S5120000x1x1, .f32⟩ : BufTy).Contents (Elt F)),
    reshape main_v88 main_v89 rfl shapeCasts_S5120000x1x1_S5120000,
    unary main_v79 main_v90 ((extractStridedSlice S5120000x1x1 ![0, 2, 2] · slices_S5120000x3x3_S5120000x1x1_0_2_2) : (⟨S5120000x3x3, .f32⟩ : BufTy).Contents (Elt F) → (⟨S5120000x1x1, .f32⟩ : BufTy).Contents (Elt F)),
    reshape main_v90 main_v91 rfl shapeCasts_S5120000x1x1_S5120000,
    unary main_v81 main_v92 (broadcastInDim S5120000x1 ![0] bcast_S5120000_S5120000x1_0 : (⟨S5120000, .f32⟩ : BufTy).Contents (Elt F) → (⟨S5120000x1, .f32⟩ : BufTy).Contents (Elt F)),
    unary main_v83 main_v93 (broadcastInDim S5120000x1 ![0] bcast_S5120000_S5120000x1_0 : (⟨S5120000, .f32⟩ : BufTy).Contents (Elt F) → (⟨S5120000x1, .f32⟩ : BufTy).Contents (Elt F)),
    unary main_v85 main_v94 (broadcastInDim S5120000x1 ![0] bcast_S5120000_S5120000x1_0 : (⟨S5120000, .f32⟩ : BufTy).Contents (Elt F) → (⟨S5120000x1, .f32⟩ : BufTy).Contents (Elt F)),
    unary main_v87 main_v95 (broadcastInDim S5120000x1 ![0] bcast_S5120000_S5120000x1_0 : (⟨S5120000, .f32⟩ : BufTy).Contents (Elt F) → (⟨S5120000x1, .f32⟩ : BufTy).Contents (Elt F)),
    unary main_v89 main_v96 (broadcastInDim S5120000x1 ![0] bcast_S5120000_S5120000x1_0 : (⟨S5120000, .f32⟩ : BufTy).Contents (Elt F) → (⟨S5120000x1, .f32⟩ : BufTy).Contents (Elt F)),
    unary main_v91 main_v97 (broadcastInDim S5120000x1 ![0] bcast_S5120000_S5120000x1_0 : (⟨S5120000, .f32⟩ : BufTy).Contents (Elt F) → (⟨S5120000x1, .f32⟩ : BufTy).Contents (Elt F)),
    nary ![main_v92, main_v93, main_v94, main_v95, main_v96, main_v97] main_v98 (fun u => concatenate S5120000x6 1 [⟨S5120000x1, u 0⟩, ⟨S5120000x1, u 1⟩, ⟨S5120000x1, u 2⟩, ⟨S5120000x1, u 3⟩, ⟨S5120000x1, u 4⟩, ⟨S5120000x1, u 5⟩] concatenates_S5120000x1_S5120000x1_S5120000x1_S5120000x1_S5120000x1_S5120000x1_S5120000x6_d1) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., unary_bufs_sub .., nary_bufs_sub ..⟩

/-- The first seven operations: the squares, their sum over the four components, its square root, the quotient. -/
abbrev ops1 : List (HloOp τ sig (Elt F)) :=
  [ binary main_arg1 main_arg1 main_v0 (mulf : (⟨S5120000x4, .f32⟩ : BufTy).Contents (Elt F) → (⟨S5120000x4, .f32⟩ : BufTy).Contents (Elt F) → (⟨S5120000x4, .f32⟩ : BufTy).Contents (Elt F)),
    nullary main_cst (constant S_ .f32 0x00000000#32),
    binary main_v0 main_cst main_v1 ((fun x v => Host.reduceAdd x v reducesTo_S5120000x4_S5120000_d1 h_S_) : (⟨S5120000x4, .f32⟩ : BufTy).Contents (Elt F) → (⟨S_, .f32⟩ : BufTy).Contents (Elt F) → (⟨S5120000, .f32⟩ : BufTy).Contents (Elt F)),
    unary main_v1 main_v2 (broadcastInDim S5120000x1 ![0] bcast_S5120000_S5120000x1_0 : (⟨S5120000, .f32⟩ : BufTy).Contents (Elt F) → (⟨S5120000x1, .f32⟩ : BufTy).Contents (Elt F)),
    unary main_v2 main_v3 (Host.sqrt : (⟨S5120000x1, .f32⟩ : BufTy).Contents (Elt F) → (⟨S5120000x1, .f32⟩ : BufTy).Contents (Elt F)),
    unary main_v3 main_v4 (broadcastInDim S5120000x4 ![0, 1] bcast_S5120000x1_S5120000x4_0_1 : (⟨S5120000x1, .f32⟩ : BufTy).Contents (Elt F) → (⟨S5120000x4, .f32⟩ : BufTy).Contents (Elt F)),
    binary main_arg1 main_v4 main_v5 (Host.divf : (⟨S5120000x4, .f32⟩ : BufTy).Contents (Elt F) → (⟨S5120000x4, .f32⟩ : BufTy).Contents (Elt F) → (⟨S5120000x4, .f32⟩ : BufTy).Contents (Elt F)) ]

/-- The next eight: the four columns of the normalized array, each cut out and stripped of its unit axis. -/
abbrev ops2 : List (HloOp τ sig (Elt F)) :=
  [ unary main_v5 main_v6 ((extractStridedSlice S5120000x1 ![0, 0] · slices_S5120000x4_S5120000x1_0_0) : (⟨S5120000x4, .f32⟩ : BufTy).Contents (Elt F) → (⟨S5120000x1, .f32⟩ : BufTy).Contents (Elt F)),
    reshape main_v6 main_v7 rfl shapeCasts_S5120000x1_S5120000,
    unary main_v5 main_v8 ((extractStridedSlice S5120000x1 ![0, 1] · slices_S5120000x4_S5120000x1_0_1) : (⟨S5120000x4, .f32⟩ : BufTy).Contents (Elt F) → (⟨S5120000x1, .f32⟩ : BufTy).Contents (Elt F)),
    reshape main_v8 main_v9 rfl shapeCasts_S5120000x1_S5120000,
    unary main_v5 main_v10 ((extractStridedSlice S5120000x1 ![0, 2] · slices_S5120000x4_S5120000x1_0_2) : (⟨S5120000x4, .f32⟩ : BufTy).Contents (Elt F) → (⟨S5120000x1, .f32⟩ : BufTy).Contents (Elt F)),
    reshape main_v10 main_v11 rfl shapeCasts_S5120000x1_S5120000,
    unary main_v5 main_v12 ((extractStridedSlice S5120000x1 ![0, 3] · slices_S5120000x4_S5120000x1_0_3) : (⟨S5120000x4, .f32⟩ : BufTy).Contents (Elt F) → (⟨S5120000x1, .f32⟩ : BufTy).Contents (Elt F)),
    reshape main_v12 main_v13 rfl shapeCasts_S5120000x1_S5120000 ]

/-- The quaternion array with every row divided by the square root of the sum of its squares. -/
def normed (a1 : (Proc.devRef .tc main_arg1 : DevRef τ sig).ty.Contents (Elt F)) : (Proc.devRef .tc main_v5 : DevRef τ sig).ty.Contents (Elt F) :=
  Host.divf a1 (broadcastInDim S5120000x4 ![0, 1] bcast_S5120000x1_S5120000x4_0_1 (Host.sqrt (broadcastInDim S5120000x1 ![0] bcast_S5120000_S5120000x1_0 (Host.reduceAdd (mulf a1 a1) (constant S_ .f32 0x00000000#32) reducesTo_S5120000x4_S5120000_d1 h_S_))))

/-- Column 0 of an [N, 4] array as an [N] vector; -/
def col0 (c5 : (Proc.devRef .tc main_v5 : DevRef τ sig).ty.Contents (Elt F)) : (Proc.devRef .tc main_v7 : DevRef τ sig).ty.Contents (Elt F) :=
  shapeCast _ (extractStridedSlice S5120000x1 ![0, 0] c5 slices_S5120000x4_S5120000x1_0_0) shapeCasts_S5120000x1_S5120000
/-- column 1; -/
def col1 (c5 : (Proc.devRef .tc main_v5 : DevRef τ sig).ty.Contents (Elt F)) : (Proc.devRef .tc main_v9 : DevRef τ sig).ty.Contents (Elt F) :=
  shapeCast _ (extractStridedSlice S5120000x1 ![0, 1] c5 slices_S5120000x4_S5120000x1_0_1) shapeCasts_S5120000x1_S5120000
/-- column 2; -/
def col2 (c5 : (Proc.devRef .tc main_v5 : DevRef τ sig).ty.Contents (Elt F)) : (Proc.devRef .tc main_v11 : DevRef τ sig).ty.Contents (Elt F) :=
  shapeCast _ (extractStridedSlice S5120000x1 ![0, 2] c5 slices_S5120000x4_S5120000x1_0_2) shapeCasts_S5120000x1_S5120000
/-- column 3. -/
def col3 (c5 : (Proc.devRef .tc main_v5 : DevRef τ sig).ty.Contents (Elt F)) : (Proc.devRef .tc main_v13 : DevRef τ sig).ty.Contents (Elt F) :=
  shapeCast _ (extractStridedSlice S5120000x1 ![0, 3] c5 slices_S5120000x4_S5120000x1_0_3) shapeCasts_S5120000x1_S5120000

theorem stage1 (W : Valuation τ sig (Elt F)) :
    after ops1 W (Proc.devRef .tc main_v5) = normed (W (Proc.devRef .tc main_arg1)) := by
  after_results_simp <;> rfl
theorem stage1_arg0 (W : Valuation τ sig (Elt F)) :
    after ops1 W (Proc.devRef .tc main_arg0) = W (Proc.devRef .tc main_arg0) := by
  after_results_simp
theorem stage2_v7 (W : Valuation τ sig (Elt F)) :
    after ops2 W (Proc.devRef .tc main_v7) = col0 (W (Proc.devRef .tc main_v5)) := by
  after_results_simp <;> rfl
theorem stage2_v9 (W : Valuation τ sig (Elt F)) :
    after ops2 W (Proc.devRef .tc main_v9) = col1 (W (Proc.devRef .tc main_v5)) := by
  after_results_simp <;> rfl
theorem stage2_v11 (W : Valuation τ sig (Elt F)) :
    after ops2 W (Proc.devRef .tc main_v11) = col2 (W (Proc.devRef .tc main_v5)) := by
  after_results_simp <;> rfl
theorem stage2_v13 (W : Valuation τ sig (Elt F)) :
    after ops2 W (Proc.devRef .tc main_v13) = col3 (W (Proc.devRef .tc main_v5)) := by
  after_results_simp <;> rfl
theorem stage2_arg0 (W : Valuation τ sig (Elt F)) :
    after ops2 W (Proc.devRef .tc main_arg0) = W (Proc.devRef .tc main_arg0) := by
  after_results_simp

/-- Operations 16 to 92: the nine rotation entries from the four component vectors, stacked, reshaped to 3 by 3, and
    each column scaled. -/
abbrev ops3 : List (HloOp τ sig (Elt F)) :=
  [ binary main_v11 main_v11 main_v14 (mulf : (⟨S5120000, .f32⟩ : BufTy).Contents (Elt F) → (⟨S5120000, .f32⟩ : BufTy).Contents (Elt F) → (⟨S5120000, .f32⟩ : BufTy).Contents (Elt F)),
    binary main_v13 main_v13 main_v15 (mulf : (⟨S5120000, .f32⟩ : BufTy).Contents (Elt F) → (⟨S5120000, .f32⟩ : BufTy).Contents (Elt F) → (⟨S5120000, .f32⟩ : BufTy).Contents (Elt F)),
    binary main_v14 main_v15 main_v16 (addf : (⟨S5120000, .f32⟩ : BufTy).Contents (Elt F) → (⟨S5120000, .f32⟩ : BufTy).Contents (Elt F) → (⟨S5120000, .f32⟩ : BufTy).Contents (Elt F)),
    nullary main_cst_0 (constant S_ .f32 0x40000000#32),
    unary main_cst_0 main_v17 (broadcastInDim S5120000 ![] bcast_S_S5120000 : (⟨S_, .f32⟩ : BufTy).Contents (Elt F) → (⟨S5120000, .f32⟩ : BufTy).Contents (Elt F)),
    binary main_v17 main_v16 main_v18 (mulf : (⟨S5120000, .f32⟩ : BufTy).Contents (Elt F) → (⟨S5120000, .f32⟩ : BufTy).Contents (Elt F) → (⟨S5120000, .f32⟩ : BufTy).Contents (Elt F)),
    nullary main_cst_1 (constant S_ .f32 0x3F800000#32),
    unary main_cst_1 main_v19 (broadcastInDim S5120000 ![] bcast_S_S5120000 : (⟨S_, .f32⟩ : BufTy).Contents (Elt F) → (⟨S5120000, .f32⟩ : BufTy).Contents (Elt F)),
    binary main_v19 main_v18 main_v20 (subf : (⟨S5120000, .f32⟩ : BufTy).Contents (Elt F) → (⟨S5120000, .f32⟩ : BufTy).Contents (Elt F) → (⟨S5120000, .f32⟩ : BufTy).Contents (Elt F)),
    binary main_v9 main_v11 main_v21 (mulf : (⟨S5120000, .f32⟩ : BufTy).Contents (Elt F) → (⟨S5120000, .f32⟩ : BufTy).Contents (Elt F) → (⟨S5120000, .f32⟩ : BufTy).Contents (Elt F)),
    binary main_v7 main_v13 main_v22 (mulf : (⟨S5120000, .f32⟩ : BufTy).Contents (Elt F) → (⟨S5120000, .f32⟩ : BufTy).Contents (Elt F) → (⟨S5120000, .f32⟩ : BufTy).Contents (Elt F)),
    binary main_v21 main_v22 main_v23 (subf : (⟨S5120000, .f32⟩ : BufTy).Contents (Elt F) → (⟨S5120000, .f32⟩ : BufTy).Contents (Elt F) → (⟨S5120000, .f32⟩ : BufTy).Contents (Elt F)),
    nullary main_cst_2 (constant S_ .f32 0x40000000#32),
    unary main_cst_2 main_v24 (broadcastInDim S5120000 ![] bcast_S_S5120000 : (⟨S_, .f32⟩ : BufTy).Contents (Elt F) → (⟨S5120000, .f32⟩ : BufTy).Contents (Elt F)),
    binary main_v24 main_v23 main_v25 (mulf : (⟨S5120000, .f32⟩ : BufTy).Contents (Elt F) → (⟨S5120000, .f32⟩ : BufTy).Contents (Elt F) → (⟨S5120000, .f32⟩ : BufTy).Contents (Elt F)),
    binary main_v9 main_v13 main_v26 (mulf : (⟨S5120000, .f32⟩ : BufTy).Contents (Elt F) → (⟨S5120000, .f32⟩ : BufTy).Contents (Elt F) → (⟨S5120000, .f32⟩ : BufTy).Contents (Elt F)),
    binary main_v7 main_v11 main_v27 (mulf : (⟨S5120000, .f32⟩ : BufTy).Contents (Elt F) → (⟨S5120000, .f32⟩ : BufTy).Contents (Elt F) → (⟨S5120000, .f32⟩ : BufTy).Contents (Elt F)),
    binary main_v26 main_v27 main_v28 (addf : (⟨S5120000, .f32⟩ : BufTy).Contents (Elt F) → (⟨S5120000, .f32⟩ : BufTy).Contents (Elt F) → (⟨S5120000, .f32⟩ : BufTy).Contents (Elt F)),
    nullary main_cst_3 (constant S_ .f32 0x40000000#32),
    unary main_cst_3 main_v29 (broadcastInDim S5120000 ![] bcast_S_S5120000 : (⟨S_, .f32⟩ : BufTy).Contents (Elt F) → (⟨S5120000, .f32⟩ : BufTy).Contents (Elt F)),
    binary main_v29 main_v28 main_v30 (mulf : (⟨S5120000, .f32⟩ : BufTy).Contents (Elt F) → (⟨S5120000, .f32⟩ : BufTy).Contents (Elt F) → (⟨S5120000, .f32⟩ : BufTy).Contents (Elt F)),
    binary main_v9 main_v11 main_v31 (mulf : (⟨S5120000, .f32⟩ : BufTy).Contents (Elt F) → (⟨S5120000, .f32⟩ : BufTy).Contents (Elt F) → (⟨S5120000, .f32⟩ : BufTy).Contents (Elt F)),
    binary main_v7 main_v13 main_v32 (mulf : (⟨S5120000, .f32⟩ : BufTy).Contents (Elt F) → (⟨S5120000, .f32⟩ : BufTy).Contents (Elt F) → (⟨S5120000, .f32⟩ : BufTy).Contents (Elt F)),
    binary main_v31 main_v32 main_v33 (addf : (⟨S5120000, .f32⟩ : BufTy).Contents (Elt F) → (⟨S5120000, .f32⟩ : BufTy).Contents (Elt F) → (⟨S5120000, .f32⟩ : BufTy).Contents (Elt F)),
    nullary main_cst_4 (constant S_ .f32 0x40000000#32),
    unary main_cst_4 main_v34 (broadcastInDim S5120000 ![] bcast_S_S5120000 : (⟨S_, .f32⟩ : BufTy).Contents (Elt F) → (⟨S5120000, .f32⟩ : BufTy).Contents (Elt F)),
    binary main_v34 main_v33 main_v35 (mulf : (⟨S5120000, .f32⟩ : BufTy).Contents (Elt F) → (⟨S5120000, .f32⟩ : BufTy).Contents (Elt F) → (⟨S5120000, .f32⟩ : BufTy).Contents (Elt F)),
    binary main_v9 main_v9 main_v36 (mulf : (⟨S5120000, .f32⟩ : BufTy).Contents (Elt F) → (⟨S5120000, .f32⟩ : BufTy).Contents (Elt F) → (⟨S5120000, .f32⟩ : BufTy).Contents (Elt F)),
    binary main_v13 main_v13 main_v37 (mulf : (⟨S5120000, .f32⟩ : BufTy).Contents (Elt F) → (⟨S5120000, .f32⟩ : BufTy).Contents (Elt F) → (⟨S5120000, .f32⟩ : BufTy).Contents (Elt F)),
    binary main_v36 main_v37 main_v38 (addf : (⟨S5120000, .f32⟩ : BufTy).Contents (Elt F) → (⟨S5120000, .f32⟩ : BufTy).Contents (Elt F) → (⟨S5120000, .f32⟩ : BufTy).Contents (Elt F)),
    nullary main_cst_5 (constant S_ .f32 0x40000000#32),
    unary main_cst_5 main_v39 (broadcastInDim S5120000 ![] bcast_S_S5120000 : (⟨S_, .f32⟩ : BufTy).Contents (Elt F) → (⟨S5120000, .f32⟩ : BufTy).Contents (Elt F)),
    binary main_v39 main_v38 main_v40 (mulf : (⟨S5120000, .f32⟩ : BufTy).Contents (Elt F) → (⟨S5120000, .f32⟩ : BufTy).Contents (Elt F) → (⟨S5120000, .f32⟩ : BufTy).Contents (Elt F)),
    nullary main_cst_6 (constant S_ .f32 0x3F800000#32),
    unary main_cst_6 main_v41 (broadcastInDim S5120000 ![] bcast_S_S5120000 : (⟨S_, .f32⟩ : BufTy).Contents (Elt F) → (⟨S5120000, .f32⟩ : BufTy).Contents (Elt F)),
    binary main_v41 main_v40 main_v42 (subf : (⟨S5120000, .f32⟩ : BufTy).Contents (Elt F) → (⟨S5120000, .f32⟩ : BufTy).Contents (Elt F) → (⟨S5120000, .f32⟩ : BufTy).Contents (Elt F)),
    binary main_v11 main_v13 main_v43 (mulf : (⟨S5120000, .f32⟩ : BufTy).Contents (Elt F) → (⟨S5120000, .f32⟩ : BufTy).Contents (Elt F) → (⟨S5120000, .f32⟩ : BufTy).Contents (Elt F)),
    binary main_v7 main_v9 main_v44 (mulf : (⟨S5120000, .f32⟩ : BufTy).Contents (Elt F) → (⟨S5120000, .f32⟩ : BufTy).Contents (Elt F) → (⟨S5120000, .f32⟩ : BufTy).Contents (Elt F)),
    binary main_v43 main_v44 main_v45 (subf : (⟨S5120000, .f32⟩ : BufTy).Contents (Elt F) → (⟨S5120000, .f32⟩ : BufTy).Contents (Elt F) → (⟨S5120000, .f32⟩ : BufTy).Contents (Elt F)),
    nullary main_cst_7 (constant S_ .f32 0x40000000#32),
    unary main_cst_7 main_v46 (broadcastInDim S5120000 ![] bcast_S_S5120000 : (⟨S_, .f32⟩ : BufTy).Contents (Elt F) → (⟨S5120000, .f32⟩ : BufTy).Contents (Elt F)),
    binary main_v46 main_v45 main_v47 (mulf : (⟨S5120000, .f32⟩ : BufTy).Contents (Elt F) → (⟨S5120000, .f32⟩ : BufTy).Contents (Elt F) → (⟨S5120000, .f32⟩ : BufTy).Contents (Elt F)),
    binary main_v9 main_v13 main_v48 (mulf : (⟨S5120000, .f32⟩ : BufTy).Contents (Elt F) → (⟨S5120000, .f32⟩ : BufTy).Contents (Elt F) → (⟨S5120000, .f32⟩ : BufTy).Contents (Elt F)),
    binary main_v7 main_v11 main_v49 (mulf : (⟨S5120000, .f32⟩ : BufTy).Contents (Elt F) → (⟨S5120000, .f32⟩ : BufTy).Contents (Elt F) → (⟨S5120000, .f32⟩ : BufTy).Contents (Elt F)),
    binary main_v48 main_v49 main_v50 (subf : (⟨S5120000, .f32⟩ : BufTy).Contents (Elt F) → (⟨S5120000, .f32⟩ : BufTy).Contents (Elt F) → (⟨S5120000, .f32⟩ : BufTy).Contents (Elt F)),
    nullary main_cst_8 (constant S_ .f32 0x40000000#32),
    unary main_cst_8 main_v51 (broadcastInDim S5120000 ![] bcast_S_S5120000 : (⟨S_, .f32⟩ : BufTy).Contents (Elt F) → (⟨S5120000, .f32⟩ : BufTy).Contents (Elt F)),
    binary main_v51 main_v50 main_v52 (mulf : (⟨S5120000, .f32⟩ : BufTy).Contents (Elt F) → (⟨S5120000, .f32⟩ : BufTy).Contents (Elt F) → (⟨S5120000, .f32⟩ : BufTy).Contents (Elt F)),
    binary main_v11 main_v13 main_v53 (mulf : (⟨S5120000, .f32⟩ : BufTy).Contents (Elt F) → (⟨S5120000, .f32⟩ : BufTy).Contents (Elt F) → (⟨S5120000, .f32⟩ : BufTy).Contents (Elt F)),
    binary main_v7 main_v9 main_v54 (mulf : (⟨S5120000, .f32⟩ : BufTy).Contents (Elt F) → (⟨S5120000, .f32⟩ : BufTy).Contents (Elt F) → (⟨S5120000, .f32⟩ : BufTy).Contents (Elt F)),
    binary main_v53 main_v54 main_v55 (addf : (⟨S5120000, .f32⟩ : BufTy).Contents (Elt F) → (⟨S5120000, .f32⟩ : BufTy).Contents (Elt F) → (⟨S5120000, .f32⟩ : BufTy).Contents (Elt F)),
    nullary main_cst_9 (constant S_ .f32 0x40000000#32),
    unary main_cst_9 main_v56 (broadcastInDim S5120000 ![] bcast_S_S5120000 : (⟨S_, .f32⟩ : BufTy).Contents (Elt F) → (⟨S5120000, .f32⟩ : BufTy).Contents (Elt F)),
    binary main_v56 main_v55 main_v57 (mulf : (⟨S5120000, .f32⟩ : BufTy).Contents (Elt F) → (⟨S5120000, .f32⟩ : BufTy).Contents (Elt F) → (⟨S5120000, .f32⟩ : BufTy).Contents (Elt F)),
    binary main_v9 main_v9 main_v58 (mulf : (⟨S5120000, .f32⟩ : BufTy).Contents (Elt F) → (⟨S5120000, .f32⟩ : BufTy).Contents (Elt F) → (⟨S5120000, .f32⟩ : BufTy).Contents (Elt F)),
    binary main_v11 main_v11 main_v59 (mulf : (⟨S5120000, .f32⟩ : BufTy).Contents (Elt F) → (⟨S5120000, .f32⟩ : BufTy).Contents (Elt F) → (⟨S5120000, .f32⟩ : BufTy).Contents (Elt F)),
    binary main_v58 main_v59 main_v60 (addf : (⟨S5120000, .f32⟩ : BufTy).Contents (Elt F) → (⟨S5120000, .f32⟩ : BufTy).Contents (Elt F) → (⟨S5120000, .f32⟩ : BufTy).Contents (Elt F)),
    nullary main_cst_10 (constant S_ .f32 0x40000000#32),
    unary main_cst_10 main_v61 (broadcastInDim S5120000 ![] bcast_S_S5120000 : (⟨S_, .f32⟩ : BufTy).Contents (Elt F) → (⟨S5120000, .f32⟩ : BufTy).Contents (Elt F)),
    binary main_v61 main_v60 main_v62 (mulf : (⟨S5120000, .f32⟩ : BufTy).Contents (Elt F) → (⟨S5120000, .f32⟩ : BufTy).Contents (Elt F) → (⟨S5120000, .f32⟩ : BufTy).Contents (Elt F)),
    nullary main_cst_11 (constant S_ .f32 0x3F800000#32),
    unary main_cst_11 main_v63 (broadcastInDim S5120000 ![] bcast_S_S5120000 : (⟨S_, .f32⟩ : BufTy).Contents (Elt F) → (⟨S5120000, .f32⟩ : BufTy).Contents (Elt F)),
    binary main_v63 main_v62 main_v64 (subf : (⟨S5120000, .f32⟩ : BufTy).Contents (Elt F) → (⟨S5120000, .f32⟩ : BufTy).Contents (Elt F) → (⟨S5120000, .f32⟩ : BufTy).Contents (Elt F)),
    unary main_v20 main_v65 (broadcastInDim S5120000x1 ![0] bcast_S5120000_S5120000x1_0 : (⟨S5120000, .f32⟩ : BufTy).Contents (Elt F) → (⟨S5120000x1, .f32⟩ : BufTy).Contents (Elt F)),
    unary main_v25 main_v66 (broadcastInDim S5120000x1 ![0] bcast_S5120000_S5120000x1_0 : (⟨S5120000, .f32⟩ : BufTy).Contents (Elt F) → (⟨S5120000x1, .f32⟩ : BufTy).Contents (Elt F)),
    unary main_v30 main_v67 (broadcastInDim S5120000x1 ![0] bcast_S5120000_S5120000x1_0 : (⟨S5120000, .f32⟩ : BufTy).Contents (Elt F) → (⟨S5120000x1, .f32⟩ : BufTy).Contents (Elt F)),
    unary main_v35 main_v68 (broadcastInDim S5120000x1 ![0] bcast_S5120000_S5120000x1_0 : (⟨S5120000, .f32⟩ : BufTy).Contents (Elt F) → (⟨S5120000x1, .f32⟩ : BufTy).Contents (Elt F)),
    unary main_v42 main_v69 (broadcastInDim S5120000x1 ![0] bcast_S5120000_S5120000x1_0 : (⟨S5120000, .f32⟩ : BufTy).Contents (Elt F) → (⟨S5120000x1, .f32⟩ : BufTy).Contents (Elt F)),
    unary main_v47 main_v70 (broadcastInDim S5120000x1 ![0] bcast_S5120000_S5120000x1_0 : (⟨S5120000, .f32⟩ : BufTy).Contents (Elt F) → (⟨S5120000x1, .f32⟩ : BufTy).Contents (Elt F)),
    unary main_v52 main_v71 (broadcastInDim S5120000x1 ![0] bcast_S5120000_S5120000x1_0 : (⟨S5120000, .f32⟩ : BufTy).Contents (Elt F) → (⟨S5120000x1, .f32⟩ : BufTy).Contents (Elt F)),
    unary main_v57 main_v72 (broadcastInDim S5120000x1 ![0] bcast_S5120000_S5120000x1_0 : (⟨S5120000, .f32⟩ : BufTy).Contents (Elt F) → (⟨S5120000x1, .f32⟩ : BufTy).Contents (Elt F)),
    unary main_v64 main_v73 (broadcastInDim S5120000x1 ![0] bcast_S5120000_S5120000x1_0 : (⟨S5120000, .f32⟩ : BufTy).Contents (Elt F) → (⟨S5120000x1, .f32⟩ : BufTy).Contents (Elt F)),
    nary ![main_v65, main_v66, main_v67, main_v68, main_v69, main_v70, main_v71, main_v72, main_v73] main_v74 (fun u => concatenate S5120000x9 1 [⟨S5120000x1, u 0⟩, ⟨S5120000x1, u 1⟩, ⟨S5120000x1, u 2⟩, ⟨S5120000x1, u 3⟩, ⟨S5120000x1, u 4⟩, ⟨S5120000x1, u 5⟩, ⟨S5120000x1, u 6⟩, ⟨S5120000x1, u 7⟩, ⟨S5120000x1, u 8⟩] concatenates_S5120000x1_S5120000x1_S5120000x1_S5120000x1_S5120000x1_S5120000x1_S5120000x1_S5120000x1_S5120000x1_S5120000x9_d1),
    reshape main_v74 main_v75 rfl shapeCasts_S5120000x9_S5120000x3x3,
    unary main_arg0 main_v76 (broadcastInDim S5120000x1x3 ![0, 2] bcast_S5120000x3_S5120000x1x3_0_2 : (⟨S5120000x3, .f32⟩ : BufTy).Contents (Elt F) → (⟨S5120000x1x3, .f32⟩ : BufTy).Contents (Elt F)),
    unary main_v76 main_v77 (broadcastInDim S5120000x3x3 ![0, 1, 2] bcast_S5120000x1x3_S5120000x3x3_0_1_2 : (⟨S5120000x1x3, .f32⟩ : BufTy).Contents (Elt F) → (⟨S5120000x3x3, .f32⟩ : BufTy).Contents (Elt F)),
    binary main_v75 main_v77 main_v78 (mulf : (⟨S5120000x3x3, .f32⟩ : BufTy).Contents (Elt F) → (⟨S5120000x3x3, .f32⟩ : BufTy).Contents (Elt F) → (⟨S5120000x3x3, .f32⟩ : BufTy).Contents (Elt F)) ]

/-- Operation 93: the contraction of the scaled rotation with itself over its column index. -/
abbrev ops4 : List (HloOp τ sig (Elt F)) :=
  [ binary main_v78 main_v78 main_v79 ((fun l r => Host.dotGeneral dot_S5120000x3x3_S5120000x3x3_S5120000x3x3_2_2_1_1_0_0 none l r) : (⟨S5120000x3x3, .f32⟩ : BufTy).Contents (Elt F) → (⟨S5120000x3x3, .f32⟩ : BufTy).Contents (Elt F) → (⟨S5120000x3x3, .f32⟩ : BufTy).Contents (Elt F)) ]

/-- Operations 94 to 112: the six upper-triangle entries cut out and stacked. -/
abbrev ops5 : List (HloOp τ sig (Elt F)) :=
  [ unary main_v79 main_v80 ((extractStridedSlice S5120000x1x1 ![0, 0, 0] · slices_S5120000x3x3_S5120000x1x1_0_0_0) : (⟨S5120000x3x3, .f32⟩ : BufTy).Contents (Elt F) → (⟨S5120000x1x1, .f32⟩ : BufTy).Contents (Elt F)),
    reshape main_v80 main_v81 rfl shapeCasts_S5120000x1x1_S5120000,
    unary main_v79 main_v82 ((extractStridedSlice S5120000x1x1 ![0, 0, 1] · slices_S5120000x3x3_S5120000x1x1_0_0_1) : (⟨S5120000x3x3, .f32⟩ : BufTy).Contents (Elt F) → (⟨S5120000x1x1, .f32⟩ : BufTy).Contents (Elt F)),
    reshape main_v82 main_v83 rfl shapeCasts_S5120000x1x1_S5120000,
    unary main_v79 main_v84 ((extractStridedSlice S5120000x1x1 ![0, 0, 2] · slices_S5120000x3x3_S5120000x1x1_0_0_2) : (⟨S5120000x3x3, .f32⟩ : BufTy).Contents (Elt F) → (⟨S5120000x1x1, .f32⟩ : BufTy).Contents (Elt F)),
    reshape main_v84 main_v85 rfl shapeCasts_S5120000x1x1_S5120000,
    unary main_v79 main_v86 ((extractStridedSlice S5120000x1x1 ![0, 1, 1] · slices_S5120000x3x3_S5120000x1x1_0_1_1) : (⟨S5120000x3x3, .f32⟩ : BufTy).Contents (Elt F) → (⟨S5120000x1x1, .f32⟩ : BufTy).Contents (Elt F)),
    reshape main_v86 main_v87 rfl shapeCasts_S5120000x1x1_S5120000,
    unary main_v79 main_v88 ((extractStridedSlice S5120000x1x1 ![0, 1, 2] · slices_S5120000x3x3_S5120000x1x1_0_1_2) : (⟨S5120000x3x3, .f32⟩ : BufTy).Contents (Elt F) → (⟨S5120000x1x1, .f32⟩ : BufTy).Contents (Elt F)),
    reshape main_v88 main_v89 rfl shapeCasts_S5120000x1x1_S5120000,
    unary main_v79 main_v90 ((extractStridedSlice S5120000x1x1 ![0, 2, 2] · slices_S5120000x3x3_S5120000x1x1_0_2_2) : (⟨S5120000x3x3, .f32⟩ : BufTy).Contents (Elt F) → (⟨S5120000x1x1, .f32⟩ : BufTy).Contents (Elt F)),
    reshape main_v90 main_v91 rfl shapeCasts_S5120000x1x1_S5120000,
    unary main_v81 main_v92 (broadcastInDim S5120000x1 ![0] bcast_S5120000_S5120000x1_0 : (⟨S5120000, .f32⟩ : BufTy).Contents (Elt F) → (⟨S5120000x1, .f32⟩ : BufTy).Contents (Elt F)),
    unary main_v83 main_v93 (broadcastInDim S5120000x1 ![0] bcast_S5120000_S5120000x1_0 : (⟨S5120000, .f32⟩ : BufTy).Contents (Elt F) → (⟨S5120000x1, .f32⟩ : BufTy).Contents (Elt F)),
    unary main_v85 main_v94 (broadcastInDim S5120000x1 ![0] bcast_S5120000_S5120000x1_0 : (⟨S5120000, .f32⟩ : BufTy).Contents (Elt F) → (⟨S5120000x1, .f32⟩ : BufTy).Contents (Elt F)),
    unary main_v87 main_v95 (broadcastInDim S5120000x1 ![0] bcast_S5120000_S5120000x1_0 : (⟨S5120000, .f32⟩ : BufTy).Contents (Elt F) → (⟨S5120000x1, .f32⟩ : BufTy).Contents (Elt F)),
    unary main_v89 main_v96 (broadcastInDim S5120000x1 ![0] bcast_S5120000_S5120000x1_0 : (⟨S5120000, .f32⟩ : BufTy).Contents (Elt F) → (⟨S5120000x1, .f32⟩ : BufTy).Contents (Elt F)),
    unary main_v91 main_v97 (broadcastInDim S5120000x1 ![0] bcast_S5120000_S5120000x1_0 : (⟨S5120000, .f32⟩ : BufTy).Contents (Elt F) → (⟨S5120000x1, .f32⟩ : BufTy).Contents (Elt F)),
    nary ![main_v92, main_v93, main_v94, main_v95, main_v96, main_v97] main_v98 (fun u => concatenate S5120000x6 1 [⟨S5120000x1, u 0⟩, ⟨S5120000x1, u 1⟩, ⟨S5120000x1, u 2⟩, ⟨S5120000x1, u 3⟩, ⟨S5120000x1, u 4⟩, ⟨S5120000x1, u 5⟩] concatenates_S5120000x1_S5120000x1_S5120000x1_S5120000x1_S5120000x1_S5120000x1_S5120000x6_d1) ]

/-- The scaled rotation as a function of the four component vectors of the normalized quaternion and of the scales:
    the nine entries side by side as an [N, 9] array, read as [N, 3, 3], times the scales spread over the rows. -/
def scaledRot (c7 : (Proc.devRef .tc main_v7 : DevRef τ sig).ty.Contents (Elt F)) (c9 : (Proc.devRef .tc main_v9 : DevRef τ sig).ty.Contents (Elt F)) (c11 : (Proc.devRef .tc main_v11 : DevRef τ sig).ty.Contents (Elt F)) (c13 : (Proc.devRef .tc main_v13 : DevRef τ sig).ty.Contents (Elt F))
    (a0 : (Proc.devRef .tc main_arg0 : DevRef τ sig).ty.Contents (Elt F)) : (Proc.devRef .tc main_v78 : DevRef τ sig).ty.Contents (Elt F) :=
  mulf (shapeCast _ (concatenate S5120000x9 1 [⟨S5120000x1, (broadcastInDim S5120000x1 ![0] bcast_S5120000_S5120000x1_0 (subf (broadcastInDim S5120000 ![] bcast_S_S5120000 (constant S_ .f32 0x3F800000#32)) (mulf (broadcastInDim S5120000 ![] bcast_S_S5120000 (constant S_ .f32 0x40000000#32)) (addf (mulf c11 c11) (mulf c13 c13)))))⟩, ⟨S5120000x1, (broadcastInDim S5120000x1 ![0] bcast_S5120000_S5120000x1_0 (mulf (broadcastInDim S5120000 ![] bcast_S_S5120000 (constant S_ .f32 0x40000000#32)) (subf (mulf c9 c11) (mulf c7 c13))))⟩, ⟨S5120000x1, (broadcastInDim S5120000x1 ![0] bcast_S5120000_S5120000x1_0 (mulf (broadcastInDim S5120000 ![] bcast_S_S5120000 (constant S_ .f32 0x40000000#32)) (addf (mulf c9 c13) (mulf c7 c11))))⟩, ⟨S5120000x1, (broadcastInDim S5120000x1 ![0] bcast_S5120000_S5120000x1_0 (mulf (broadcastInDim S5120000 ![] bcast_S_S5120000 (constant S_ .f32 0x40000000#32)) (addf (mulf c9 c11) (mulf c7 c13))))⟩, ⟨S5120000x1, (broadcastInDim S5120000x1 ![0] bcast_S5120000_S5120000x1_0 (subf (broadcastInDim S5120000 ![] bcast_S_S5120000 (constant S_ .f32 0x3F800000#32)) (mulf (broadcastInDim S5120000 ![] bcast_S_S5120000 (constant S_ .f32 0x40000000#32)) (addf (mulf c9 c9) (mulf c13 c13)))))⟩, ⟨S5120000x1, (broadcastInDim S5120000x1 ![0] bcast_S5120000_S5120000x1_0 (mulf (broadcastInDim S5120000 ![] bcast_S_S5120000 (constant S_ .f32 0x40000000#32)) (subf (mulf c11 c13) (mulf c7 c9))))⟩, ⟨S5120000x1, (broadcastInDim S5120000x1 ![0] bcast_S5120000_S5120000x1_0 (mulf (broadcastInDim S5120000 ![] bcast_S_S5120000 (constant S_ .f32 0x40000000#32)) (subf (mulf c9 c13) (mulf c7 c11))))⟩, ⟨S5120000x1, (broadcastInDim S5120000x1 ![0] bcast_S5120000_S5120000x1_0 (mulf (broadcastInDim S5120000 ![] bcast_S_S5120000 (constant S_ .f32 0x40000000#32)) (addf (mulf c11 c13) (mulf c7 c9))))⟩, ⟨S5120000x1, (broadcastInDim S5120000x1 ![0] bcast_S5120000_S5120000x1_0 (subf (broadcastInDim S5120000 ![] bcast_S_S5120000 (constant S_ .f32 0x3F800000#32)) (mulf (broadcastInDim S5120000 ![] bcast_S_S5120000 (constant S_ .f32 0x40000000#32)) (addf (mulf c9 c9) (mulf c11 c11)))))⟩] concatenates_S5120000x1_S5120000x1_S5120000x1_S5120000x1_S5120000x1_S5120000x1_S5120000x1_S5120000x1_S5120000x1_S5120000x9_d1) shapeCasts_S5120000x9_S5120000x3x3) (broadcastInDim S5120000x3x3 ![0, 1, 2] bcast_S5120000x1x3_S5120000x3x3_0_1_2 (broadcastInDim S5120000x1x3 ![0, 2] bcast_S5120000x3_S5120000x1x3_0_2 a0))

/-- The product of an [N, 3, 3] array with its own transpose, point by point. -/
def gram (c78 : (Proc.devRef .tc main_v78 : DevRef τ sig).ty.Contents (Elt F)) : (Proc.devRef .tc main_v79 : DevRef τ sig).ty.Contents (Elt F) :=
  Host.dotGeneral dot_S5120000x3x3_S5120000x3x3_S5120000x3x3_2_2_1_1_0_0 none c78 c78

/-- The six upper-triangle entries of an [N, 3, 3] array side by side as an [N, 6] array. -/
def upper (c79 : (Proc.devRef .tc main_v79 : DevRef τ sig).ty.Contents (Elt F)) : (Proc.devRef .tc main_v98 : DevRef τ sig).ty.Contents (Elt F) :=
  concatenate S5120000x6 1 [⟨S5120000x1, (broadcastInDim S5120000x1 ![0] bcast_S5120000_S5120000x1_0 (shapeCast _ (extractStridedSlice S5120000x1x1 ![0, 0, 0] c79 slices_S5120000x3x3_S5120000x1x1_0_0_0) shapeCasts_S5120000x1x1_S5120000))⟩, ⟨S5120000x1, (broadcastInDim S5120000x1 ![0] bcast_S5120000_S5120000x1_0 (shapeCast _ (extractStridedSlice S5120000x1x1 ![0, 0, 1] c79 slices_S5120000x3x3_S5120000x1x1_0_0_1) shapeCasts_S5120000x1x1_S5120000))⟩, ⟨S5120000x1, (broadcastInDim S5120000x1 ![0] bcast_S5120000_S5120000x1_0 (shapeCast _ (extractStridedSlice S5120000x1x1 ![0, 0, 2] c79 slices_S5120000x3x3_S5120000x1x1_0_0_2) shapeCasts_S5120000x1x1_S5120000))⟩, ⟨S5120000x1, (broadcastInDim S5120000x1 ![0] bcast_S5120000_S5120000x1_0 (shapeCast _ (extractStridedSlice S5120000x1x1 ![0, 1, 1] c79 slices_S5120000x3x3_S5120000x1x1_0_1_1) shapeCasts_S5120000x1x1_S5120000))⟩, ⟨S5120000x1, (broadcastInDim S5120000x1 ![0] bcast_S5120000_S5120000x1_0 (shapeCast _ (extractStridedSlice S5120000x1x1 ![0, 1, 2] c79 slices_S5120000x3x3_S5120000x1x1_0_1_2) shapeCasts_S5120000x1x1_S5120000))⟩, ⟨S5120000x1, (broadcastInDim S5120000x1 ![0] bcast_S5120000_S5120000x1_0 (shapeCast _ (extractStridedSlice S5120000x1x1 ![0, 2, 2] c79 slices_S5120000x3x3_S5120000x1x1_0_2_2) shapeCasts_S5120000x1x1_S5120000))⟩] concatenates_S5120000x1_S5120000x1_S5120000x1_S5120000x1_S5120000x1_S5120000x1_S5120000x6_d1

set_option maxRecDepth 8192 in
set_option maxHeartbeats 4000000 in
theorem stage3 (W : Valuation τ sig (Elt F)) :
    after ops3 W (Proc.devRef .tc main_v78) = scaledRot (W (Proc.devRef .tc main_v7)) (W (Proc.devRef .tc main_v9))
      (W (Proc.devRef .tc main_v11)) (W (Proc.devRef .tc main_v13)) (W (Proc.devRef .tc main_arg0)) := by
  after_results_simp <;> rfl
theorem stage4 (W : Valuation τ sig (Elt F)) :
    after ops4 W (Proc.devRef .tc main_v79) = gram (W (Proc.devRef .tc main_v78)) := by
  after_results_simp <;> rfl
set_option maxRecDepth 8192 in
theorem stage5 (W : Valuation τ sig (Elt F)) :
    after ops5 W (Proc.devRef .tc main_v98) = upper (W (Proc.devRef .tc main_v79)) := by
  after_results_simp <;> rfl

set_option maxRecDepth 8192 in
set_option maxHeartbeats 4000000 in
/-- The line is its five stages, one after another. -/
theorem ops_split : (ops : List (HloOp τ sig (Elt F))) = ops1 ++ (ops2 ++ (ops3 ++ (ops4 ++ ops5))) := rfl

/-- THE RESULT after the whole line, from any contents: the five stage functions composed. -/
theorem value_eq (V0 : Valuation τ sig (Elt F)) :
    after ops V0 (Proc.devRef .tc main_v98)
      = upper (gram (scaledRot (col0 (normed (V0 (Proc.devRef .tc main_arg1)))) (col1 (normed (V0 (Proc.devRef .tc main_arg1))))
          (col2 (normed (V0 (Proc.devRef .tc main_arg1)))) (col3 (normed (V0 (Proc.devRef .tc main_arg1))))
          (V0 (Proc.devRef .tc main_arg0)))) := by
  rw [ops_split, StableHlo.after_append, StableHlo.after_append, StableHlo.after_append, StableHlo.after_append,
    stage5, stage4, stage3, stage2_v7, stage2_v9, stage2_v11, stage2_v13, stage2_arg0, stage1, stage1_arg0]

set_option maxRecDepth 8192 in
set_option maxHeartbeats 4000000 in
/-- On every device, from any memory with zero counters: every weakly fair execution of the program terminates with
    the result at the composed stage functions of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98)
        = upper (gram (scaledRot (col0 (normed (launchContents m c (Proc.devRef .tc main_arg1))))
            (col1 (normed (launchContents m c (Proc.devRef .tc main_arg1)))) (col2 (normed (launchContents m c (Proc.devRef .tc main_arg1))))
            (col3 (normed (launchContents m c (Proc.devRef .tc main_arg1)))) (launchContents m c (Proc.devRef .tc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v98).trans (value_eq (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Staged

end
-- ==== Proof.Spec.lean ====
/-
  The covariance of a scaled rotation, entry by entry, on the extended reals.

  A point carries three scales `s` and a quaternion `q = (r, x, y, z)`. With `N = r² + x² + y² + z²` the
  normalized quaternion is `q' = q · N^(-1/2)`, the rotation `R(q')` has the nine classical entries
  (`R₀₀ = 1 − 2(y'² + z'²)`, `R₀₁ = 2(x'y' − r'z')`, …), `L = R · diag s` scales column `j` by `s j`, and the
  covariance is `L Lᵀ`: entry `(i, k)` is `∑ⱼ L i j · L k j`. The result keeps the six entries of the upper
  triangle, in the order (0,0), (0,1), (0,2), (1,1), (1,2), (2,2).

  Every sum is written in one fixed grouping, `(a + b) + c`, and every product in one fixed order; on the
  extended reals `+` and `·` are commutative and associative, so any other grouping names the same value, but
  the fixed one lets both programs be matched against it term by term.

  The one law the two programs differ by: where the squared norm is positive, multiplying by its reciprocal
  square root is dividing by its square root (`mul_rsqrt_eq_div_sqrt`). At a squared norm of zero the two differ
  (`0 · ⊤ = 0` against the junk value of `0 / 0`), which is why the claim is stated for nonzero quaternions.
-/
import Idealize.ShloMosaic.PureOps.Ideal
import Idealize.ShloMosaic.PureOps.Ideal.Laws
import Idealize.ShloMosaic.Lib.ValueIdx
import Idealize.ShloMosaic.Lib.IdealHost

noncomputable section

namespace Cert.CovSpec

open Idealize.ShloMosaic Idealize.ShloMosaic.ValueIdx

/-- The literal `2.0`, kept as its word: both programs carry the same word, so it is never evaluated. -/
abbrev two : EReal := Ideal.ofBits .f32 0x40000000#32
/-- The literal `1.0`, kept as its word. -/
abbrev one : EReal := Ideal.ofBits .f32 0x3F800000#32

/-- The squared norm of a quaternion, summed left to right. -/
def nrm2 (r x y z : EReal) : EReal := r * r + x * x + y * y + z * z

/-- The rotation matrix of a (normalized) quaternion `(r, x, y, z)`, row `i`, column `j`. -/
def rot (r x y z : EReal) (i j : Fin 3) : EReal :=
  ![![one - two * (y * y + z * z), two * (x * y - r * z), two * (x * z + r * y)],
    ![two * (x * y + r * z), one - two * (x * x + z * z), two * (y * z - r * x)],
    ![two * (x * z - r * y), two * (y * z + r * x), one - two * (x * x + y * y)]] i j

/-- The scaled rotation `L = R · diag s`: column `j` of the rotation times `s j`. -/
def scaled (s0 s1 s2 r x y z : EReal) (i j : Fin 3) : EReal := rot r x y z i j * ![s0, s1, s2] j

/-- Entry `(i, k)` of `L Lᵀ`: the sum over the three columns, left to right. -/
def cov (s0 s1 s2 r x y z : EReal) (i k : Fin 3) : EReal :=
  scaled s0 s1 s2 r x y z i 0 * scaled s0 s1 s2 r x y z k 0
    + scaled s0 s1 s2 r x y z i 1 * scaled s0 s1 s2 r x y z k 1
    + scaled s0 s1 s2 r x y z i 2 * scaled s0 s1 s2 r x y z k 2

/-- The row of the upper-triangle entry `e`. -/
def triRow : Fin 6 → Fin 3 := ![0, 0, 0, 1, 1, 2]
/-- The column of the upper-triangle entry `e`. -/
def triCol : Fin 6 → Fin 3 := ![0, 1, 2, 1, 2, 2]

/-- The six kept entries, from the scales and the quaternion as given (not yet normalized): each quaternion
    component is first multiplied by the reciprocal square root of the squared norm. -/
def entry (s0 s1 s2 r x y z : EReal) (e : Fin 6) : EReal :=
  cov s0 s1 s2 (r * Ideal.rsqrt (nrm2 r x y z)) (x * Ideal.rsqrt (nrm2 r x y z))
    (y * Ideal.rsqrt (nrm2 r x y z)) (z * Ideal.rsqrt (nrm2 r x y z)) (triRow e) (triCol e)

/-- The same six entries with each component DIVIDED by the square root of the squared norm. -/
def entryDiv (s0 s1 s2 r x y z : EReal) (e : Fin 6) : EReal :=
  cov s0 s1 s2 (Ideal.div r (Ideal.sqrt (nrm2 r x y z))) (Ideal.div x (Ideal.sqrt (nrm2 r x y z)))
    (Ideal.div y (Ideal.sqrt (nrm2 r x y z))) (Ideal.div z (Ideal.sqrt (nrm2 r x y z))) (triRow e) (triCol e)

/-- For a positive `N`, finite or not, `q · N^(-1/2) = q / √N`: at a real `N > 0` both are `q` times the inverse
    of the real square root (one as the cast of the real inverse, one as the extended-real inverse of the cast);
    at `N = ⊤` both are `q · 0`. -/
theorem mul_rsqrt_eq_div_sqrt (q N : EReal) (hN : 0 < N) : q * Ideal.rsqrt N = Ideal.div q (Ideal.sqrt N) := by
  induction N using EReal.rec with
  | bot => exact absurd hN (by simp)
  | top =>
    have h1 : Ideal.rsqrt ⊤ = 0 := rfl
    have h2 : Ideal.sqrt ⊤ = ⊤ := rfl
    rw [h1, h2, Ideal.div, if_neg (by simp), EReal.inv_top]
  | coe a =>
    have ha : 0 < a := by exact_mod_cast hN
    have h1 : Ideal.rsqrt (a : EReal) = (((Real.sqrt a)⁻¹ : ℝ) : EReal) := by
      show (if a < 0 then (⊥ : EReal) else if a = 0 then ⊤ else (((Real.sqrt a)⁻¹ : ℝ) : EReal)) = _
      rw [if_neg (not_lt.mpr ha.le), if_neg ha.ne']
    have h2 : Ideal.sqrt (a : EReal) = ((Real.sqrt a : ℝ) : EReal) := by
      show (if a < 0 then (⊥ : EReal) else ((Real.sqrt a : ℝ) : EReal)) = _
      rw [if_neg (not_lt.mpr ha.le)]
    have hs : Real.sqrt a ≠ 0 := (Real.sqrt_pos.mpr ha).ne'
    rw [h1, h2, Ideal.div, if_neg (by exact_mod_cast hs), EReal.coe_inv]

/-- Where the squared norm is positive the two spellings of the six entries agree. -/
theorem entry_eq_entryDiv (s0 s1 s2 r x y z : EReal) (h : 0 < nrm2 r x y z) (e : Fin 6) :
    entry s0 s1 s2 r x y z e = entryDiv s0 s1 s2 r x y z e := by
  unfold entry entryDiv
  rw [mul_rsqrt_eq_div_sqrt r _ h, mul_rsqrt_eq_div_sqrt x _ h, mul_rsqrt_eq_div_sqrt y _ h,
    mul_rsqrt_eq_div_sqrt z _ h]

/-- The host's sum of the squares of a quaternion array over its four components, at point `n`: the initial value
    is the zero word, which is `0`, and the sum over the four coordinates is `nrm2` of the four components. -/
theorem sumsq_apply (a : (⟨2, ![5120000, 4]⟩ : Shape).Idx → EReal)
    (h' : (⟨2, ![5120000, 4]⟩ : Shape).ReducesTo [1] ⟨1, ![5120000]⟩) (hu : 0 < (⟨0, ![]⟩ : Shape).numel) (n : Fin 5120000) :
    Host.reduceAdd (F := Ideal) (mulf (F := Ideal) (φ := .f32) a a) (constant (F := Ideal) ⟨0, ![]⟩ .f32 0x00000000#32) h' hu (ix1 n)
      = nrm2 (a (ix2 n 0)) (a (ix2 n 1)) (a (ix2 n 2)) (a (ix2 n 3)) := by
  have h : (⟨2, ![5120000, 4]⟩ : Shape).Reduces [1] ⟨1, ![5120000]⟩ := by decide
  rw [hostReduceAdd_apply, Ideal.hostReduceAdd_single h' h]
  have hl : ∀ k : Fin 4, h.lift (ix1 n) k = ix2 n k := by
    intro k; funext d
    match d with
    | ⟨0, _⟩ => rfl
    | ⟨1, _⟩ => rfl
  show constant (F := Ideal) ⟨0, ![]⟩ .f32 0x00000000#32 _ + ∑ k : Fin 4, mulf (F := Ideal) (φ := .f32) a a (h.lift (ix1 n) k) = _
  simp only [hl, constant_apply, mulf_apply, Ideal.ofBits_zero_f32, zero_add, Fin.sum_univ_four, nrm2]

/-- The result array as ONE function of the two argument arrays: at point `n`, entry `e`. -/
def G (a0 : (⟨2, ![5120000, 3]⟩ : Shape).Idx → EReal) (a1 : (⟨2, ![5120000, 4]⟩ : Shape).Idx → EReal) :
    (⟨2, ![5120000, 6]⟩ : Shape).Idx → EReal := fun i =>
  entry (a0 (ix2 (i 0) 0)) (a0 (ix2 (i 0) 1)) (a0 (ix2 (i 0) 2))
    (a1 (ix2 (i 0) 0)) (a1 (ix2 (i 0) 1)) (a1 (ix2 (i 0) 2)) (a1 (ix2 (i 0) 3)) (i 1)

end Cert.CovSpec

end
-- ==== Proof.PreRead.lean ====
/-
  What the precondition says of the quaternions: at every point the squared norm is positive.

  The precondition is a conjunction of three `all`s: every scale is finite, every quaternion component is finite,
  and at every point the sum of the four squared components exceeds zero. Only the last is used: it is the sum
  the reference takes the square root of and divides by, and the kernel takes the reciprocal square root of.
-/
import proofs.«105443_j4088808866444_2_alg».proof.Defs
import proofs.«105443_j4088808866444_2_alg».proof.Proof.Spec
import Idealize.ShloMosaic.Lib.ReduceAll
import Idealize.ShloMosaic.Lib.Affine
import Idealize.ShloMosaic.Lib.IdealHost
import Idealize.ShloMosaic.Lib.ValueIdx

noncomputable section

namespace Cert.PreRead

open Idealize.ShloMosaic Idealize.ShloMosaic.ValueIdx Cert.CovSpec Cert.Pre_finite_inputs

/-- The rank-0 shape has one index. -/
instance : Subsingleton S_.Idx := ⟨fun a b => funext fun d => d.elim0⟩

/-- A truth value as a one-bit word is the word `1` exactly when it is true. -/
theorem ofBool_eq_one (b : Bool) : BitVec.ofBool b = 1#1 ↔ b = true := by cases b <;> decide

/-- Where the precondition holds, the squared norm of every quaternion is positive. -/
theorem nrm2_pos [Cert.Pre_finite_inputs.Facts] (a0 : FVec Ideal S5120000x3 .f32) (a1 : FVec Ideal S5120000x4 .f32)
    (h : Cert.Pre_finite_inputs.fn (F := Ideal) a0 a1 = fun _ => 1#1) (n : Fin 5120000) :
    0 < nrm2 (a1 (ix2 n 0)) (a1 (ix2 n 1)) (a1 (ix2 n 2)) (a1 (ix2 n 3)) := by
  have h0 := congrFun h ix0
  dsimp only [Cert.Pre_finite_inputs.fn] at h0
  obtain ⟨-, h13⟩ := IntOp.andi_eq_one.1 h0
  have h12 := Host.reduce_andi_all _ _ _ _ _ h13 (ix1 n)
  rw [cmpf_apply, broadcastInDim_scalar_apply, constant_apply, sumsq_apply] at h12
  have h3 : Ideal.cmp .ogt (nrm2 (a1 (ix2 n 0)) (a1 (ix2 n 1)) (a1 (ix2 n 2)) (a1 (ix2 n 3))) (Ideal.ofBits .f32 0x00000000#32) = 1#1 := h12
  unfold Ideal.cmp at h3
  rw [ofBool_eq_one] at h3
  have h4 := of_decide_eq_true h3
  rwa [Ideal.ofBits_zero_f32] at h4

end Cert.PreRead

end
-- ==== Proof.KBlock.lean ====
/-
  What the kernel body leaves in its output block, as one function of the two input blocks.

  A block of the scales is a [3, 128000] array (row `j` holds scale `j` of 128000 consecutive points, one point per
  lane), a block of the quaternions a [4, 128000] array (rows `r, x, y, z`), and the output block a [6, 128000]
  array. The body reads each input row as a [1, 128000] slab, drops the unit axis, computes lane by lane, puts the
  unit axis back and stores six rows. So at row `e` and lane `l` the output block holds the covariance entry `e`
  of the point in lane `l`: `CovSpec.entry` of the seven numbers in that lane of the input blocks.
-/
import proofs.«105443_j4088808866444_2_alg».proof.Proof.Gen.KernelIdeal.Frame
import proofs.«105443_j4088808866444_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx Cert.CovSpec

/-- The output block as a function of the input blocks: row `e`, lane `l` holds entry `e` of the point whose scales
    and quaternion sit in lane `l`. -/
def blockOf (x0 : Vec Ideal S3x128000 .f32) (x1 : Vec Ideal S4x128000 .f32) : Vec Ideal S6x128000 .f32 := fun y =>
  entry (x0 (ix2 0 (y 1))) (x0 (ix2 1 (y 1))) (x0 (ix2 2 (y 1)))
    (x1 (ix2 0 (y 1))) (x1 (ix2 1 (y 1))) (x1 (ix2 2 (y 1))) (x1 (ix2 3 (y 1))) (y 0)

/-- Row `k` of an [m, 128000] array read as a [1, 128000] slab: local index `(u, l)` is array index `(k, l)`. -/
theorem idx_row {m : ℕ} (k : ℕ) (hk : k < m) (inb) (u : Fin 1) (l : Fin 128000) :
    (Rect.unit (s := (⟨2, ![m, 128000]⟩ : Shape)) ![k, 0] ![1, 128000] inb).idx (ix2 u l) = ix2 (⟨k, hk⟩ : Fin m) l := by
  funext a
  match a with
  | ⟨0, _⟩ => exact Fin.ext (by show k + 1 * u.val = k; omega)
  | ⟨1, _⟩ => exact Fin.ext (by show 0 + 1 * l.val = l.val; omega)

/-- An input row, loaded as a slab and stripped of its unit axis, at lane `l`: the array at `(k, l)`. -/
theorem row_apply {m : ℕ} (X : (⟨2, ![m, 128000]⟩ : Shape).Idx → Elt Ideal .f32) (k : ℕ) (hk : k < m) (inb)
    (h : (⟨2, ![1, 128000]⟩ : Shape).ShapeCasts ⟨1, ![128000]⟩) (l : Fin 128000) :
    shapeCast ⟨1, ![128000]⟩
        (View.ld (Val := Elt Ideal) (e' := .f32) X (Rect.unit (s := (⟨2, ![m, 128000]⟩ : Shape)) ![k, 0] ![1, 128000] inb)) h (ix1 l)
      = X (ix2 (⟨k, hk⟩ : Fin m) l) := by
  rw [ValueIdx.shapeCast_1a_a_apply]
  show X ((Rect.unit (s := (⟨2, ![m, 128000]⟩ : Shape)) ![k, 0] ![1, 128000] inb).idx (ix2 0 l)) = _
  rw [idx_row k hk inb 0 l]

/-- The block function restated over the seven lane vectors the body computes with (each an input row stripped
    of its unit axis): at row `e`, lane `l`, it is `entry` of those vectors at lane `l`. -/
theorem blockOf_rows (x0 : Vec Ideal S3x128000 .f32) (x1 : Vec Ideal S4x128000 .f32) (e : Fin 6) (l : Fin 128000) :
    blockOf x0 x1 (ix2 e l)
      = entry (k0_pay1 (View.ld x0 r0_0) (ix1 l)) (k0_pay2 (View.ld x0 r0_1) (ix1 l)) (k0_pay3 (View.ld x0 r0_2) (ix1 l))
          (k0_pay4 (View.ld x1 r0_3) (ix1 l)) (k0_pay5 (View.ld x1 r0_4) (ix1 l)) (k0_pay6 (View.ld x1 r0_5) (ix1 l))
          (k0_pay7 (View.ld x1 r0_6) (ix1 l)) e := by
  have h0 : k0_pay1 (View.ld x0 r0_0) (ix1 l) = x0 (ix2 0 l) := row_apply (m := 3) x0 0 (by omega) _ _ l
  have h1 : k0_pay2 (View.ld x0 r0_1) (ix1 l) = x0 (ix2 1 l) := row_apply (m := 3) x0 1 (by omega) _ _ l
  have h2 : k0_pay3 (View.ld x0 r0_2) (ix1 l) = x0 (ix2 2 l) := row_apply (m := 3) x0 2 (by omega) _ _ l
  have h3 : k0_pay4 (View.ld x1 r0_3) (ix1 l) = x1 (ix2 0 l) := row_apply (m := 4) x1 0 (by omega) _ _ l
  have h4 : k0_pay5 (View.ld x1 r0_4) (ix1 l) = x1 (ix2 1 l) := row_apply (m := 4) x1 1 (by omega) _ _ l
  have h5 : k0_pay6 (View.ld x1 r0_5) (ix1 l) = x1 (ix2 2 l) := row_apply (m := 4) x1 2 (by omega) _ _ l
  have h6 : k0_pay7 (View.ld x1 r0_6) (ix1 l) = x1 (ix2 3 l) := row_apply (m := 4) x1 3 (by omega) _ _ l
  rw [h0, h1, h2, h3, h4, h5, h6]
  rfl

/-- A stored row: the lane vector `v` with its unit axis put back, at local index `(u, l)`, is `v` at lane `l`. -/
theorem stored_apply (v : FVec Ideal S128000 .f32) (h : S128000.ShapeCasts S1x128000) (u : Fin 1) (l : Fin 128000) :
    shapeCast S1x128000 v h (ix2 u l) = v (ix1 l) := ValueIdx.shapeCast_a_1a_apply v h u l

/-- Row `k` of the output block as a [1, 128000] slab: local index `(u, l)` is block index `(k, l)`. -/
theorem emb_row (k : ℕ) (hk : k < 6) (inb) (u : Fin 1) (l : Fin 128000) :
    (Rect.unit (s := S6x128000) ![k, 0] S1x128000.size inb).emb (ix2 u l) = ix2 (⟨k, hk⟩ : Fin 6) l :=
  idx_row (m := 6) k hk inb u l

set_option maxHeartbeats 1000000 in
/-- THE OUTPUT BLOCK: the six stored rows together are `blockOf` of the input blocks. Each store's payload at
    lane `l` is the covariance entry of its row, computed from the seven lane vectors exactly as `entry` groups it. -/
theorem out_eq (x0 : Vec Ideal S3x128000 .f32) (x1 : Vec Ideal S4x128000 .f32) :
    out0_2 x0 x1 = blockOf x0 x1 := by
  funext y
  unfold out0_2
  refine View.canon_apply_of_pieces (blockOf x0 x1) _ ?_ y (cover0_2 _ _ _ _ _ _ y)
  intro p hp
  simp only [List.mem_cons, List.mem_nil_iff, or_false] at hp
  rcases hp with rfl | rfl | rfl | rfl | rfl | rfl
  · intro x
    obtain ⟨u, l, rfl⟩ : ∃ (u : Fin 1) (l : Fin 128000), x = ix2 u l := ⟨x 0, x 1, eq_ix2 x⟩
    show k0_pay33 (F := Ideal) _ _ _ (ix2 u l) = blockOf x0 x1 (r0_12.emb (ix2 u l))
    rw [emb_row 5 (by omega) _ u l, blockOf_rows]
    unfold k0_pay33
    rw [stored_apply]
    rfl
  · intro x
    obtain ⟨u, l, rfl⟩ : ∃ (u : Fin 1) (l : Fin 128000), x = ix2 u l := ⟨x 0, x 1, eq_ix2 x⟩
    show k0_pay32 (F := Ideal) _ _ _ _ _ _ (ix2 u l) = blockOf x0 x1 (r0_11.emb (ix2 u l))
    rw [emb_row 4 (by omega) _ u l, blockOf_rows]
    unfold k0_pay32
    rw [stored_apply]
    rfl
  · intro x
    obtain ⟨u, l, rfl⟩ : ∃ (u : Fin 1) (l : Fin 128000), x = ix2 u l := ⟨x 0, x 1, eq_ix2 x⟩
    show k0_pay31 (F := Ideal) _ _ _ (ix2 u l) = blockOf x0 x1 (r0_10.emb (ix2 u l))
    rw [emb_row 3 (by omega) _ u l, blockOf_rows]
    unfold k0_pay31
    rw [stored_apply]
    rfl
  · intro x
    obtain ⟨u, l, rfl⟩ : ∃ (u : Fin 1) (l : Fin 128000), x = ix2 u l := ⟨x 0, x 1, eq_ix2 x⟩
    show k0_pay30 (F := Ideal) _ _ _ _ _ _ (ix2 u l) = blockOf x0 x1 (r0_9.emb (ix2 u l))
    rw [emb_row 2 (by omega) _ u l, blockOf_rows]
    unfold k0_pay30
    rw [stored_apply]
    rfl
  · intro x
    obtain ⟨u, l, rfl⟩ : ∃ (u : Fin 1) (l : Fin 128000), x = ix2 u l := ⟨x 0, x 1, eq_ix2 x⟩
    show k0_pay29 (F := Ideal) _ _ _ _ (ix2 u l) = blockOf x0 x1 (r0_8.emb (ix2 u l))
    rw [emb_row 1 (by omega) _ u l, blockOf_rows]
    unfold k0_pay29
    rw [stored_apply]
    rfl
  · intro x
    obtain ⟨u, l, rfl⟩ : ∃ (u : Fin 1) (l : Fin 128000), x = ix2 u l := ⟨x 0, x 1, eq_ix2 x⟩
    show _ = blockOf x0 x1 (r0_7.emb (ix2 u l))
    rw [emb_row 0 (by omega) _ u l, blockOf_rows]
    dsimp only
    unfold k0_pay28
    rw [stored_apply]
    rfl

end Cert.KernelIdeal.Block

end
-- ==== Proof.KArray.lean ====
/-
  From blocks to the whole array, in the channel-major layout the region works in.

  The region's arrays are the scales as [3, N], the quaternions as [4, N] and the output as [6, N], N = 5120000,
  cut along the long axis into 40 blocks of 128000 columns: at grid point `t` every window's block is block
  `(0, t)`, so column `l` of a block is column `128000 t + l` of its array, the same for all three windows, and
  the rows are the array's rows. The body's output block is `blockOf` of the input blocks (KBlock), a function of
  the column alone; hence what point `t` writes back is block `t` of ONE whole-array function `arrOf`, the 40
  blocks tile the output array (column `i` lies in block `i / 128000`), and the array after the run is `arrOf`.
-/
import proofs.«105443_j4088808866444_2_alg».proof.Proof.KBlock
import Idealize.ShloMosaic.Lib.Pipeline.Value

set_option maxRecDepth 16384

noncomputable section

namespace Cert.KernelIdeal.Arr

open Cert.KernelIdeal Cert.KernelIdeal.Gen Cert.KernelIdeal.Block Idealize.ShloMosaic Idealize.ShloMosaic.ValueIdx Cert.CovSpec
open Idealize.ShloMosaic.TcCoe Idealize.SL.Sem

variable (m : (ℓ : Loc nD τ sig) → Buf (Elt Ideal) ℓ)

/-- The output array in the channel-major layout as one function of the two channel-major input arrays: row `e`,
    column `n` holds entry `e` of point `n`. -/
def arrOf (b0 : S3x5120000.Idx → EReal) (b1 : S4x5120000.Idx → EReal) : S6x5120000.Idx → EReal := fun i =>
  entry (b0 (ix2 0 (i 1))) (b0 (ix2 1 (i 1))) (b0 (ix2 2 (i 1)))
    (b1 (ix2 0 (i 1))) (b1 (ix2 1 (i 1))) (b1 (ix2 2 (i 1))) (b1 (ix2 3 (i 1))) (i 0)

/-- The three index maps, decided over the 40 points: every window's block at point `t` is block `(0, t)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT `t` WRITES BACK is block `t` of `arrOf` of the input arrays as the region finds them: the body's
    block function reads lane `l` of each input block, which is column `128000 t + l` of its array, the column the
    output block's lane `l` is written to. -/
theorem flushed_eq (c : Dev nD) (t : Fin cfg0.N) :
    (dats m 0 c).flushed 2 t = ((cfg0.win 2).blk t).view.read (Elt Ideal) (arrOf (V m c main_v0) (V m c main_v1)) := by
  show (cfg0.win 2).cut (grid0.coords t) ((dats m 0 c).after 2 t) = _
  rw [after0_2, out_eq]
  obtain ⟨e0, e1, e2, e3, e4, e5⟩ := idx_facts t
  funext j
  show entry (V m c main_v0 (((cfg0.win 0).blk t).view.emb (ix2 0 (j 1)))) (V m c main_v0 (((cfg0.win 0).blk t).view.emb (ix2 1 (j 1))))
        (V m c main_v0 (((cfg0.win 0).blk t).view.emb (ix2 2 (j 1))))
        (V m c main_v1 (((cfg0.win 1).blk t).view.emb (ix2 0 (j 1)))) (V m c main_v1 (((cfg0.win 1).blk t).view.emb (ix2 1 (j 1))))
        (V m c main_v1 (((cfg0.win 1).blk t).view.emb (ix2 2 (j 1)))) (V m c main_v1 (((cfg0.win 1).blk t).view.emb (ix2 3 (j 1)))) (j 0)
      = entry (V m c main_v0 (ix2 0 ((((cfg0.win 2).blk t).view.emb j) 1))) (V m c main_v0 (ix2 1 ((((cfg0.win 2).blk t).view.emb j) 1)))
        (V m c main_v0 (ix2 2 ((((cfg0.win 2).blk t).view.emb j) 1)))
        (V m c main_v1 (ix2 0 ((((cfg0.win 2).blk t).view.emb j) 1))) (V m c main_v1 (ix2 1 ((((cfg0.win 2).blk t).view.emb j) 1)))
        (V m c main_v1 (ix2 2 ((((cfg0.win 2).blk t).view.emb j) 1))) (V m c main_v1 (ix2 3 ((((cfg0.win 2).blk t).view.emb j) 1)))
        ((((cfg0.win 2).blk t).view.emb j) 0)
  have ha : ∀ k : Fin 3, ((cfg0.win 0).blk t).view.emb (ix2 k (j 1)) = ix2 k ((((cfg0.win 2).blk t).view.emb j) 1) := by
    intro k; funext a; apply Fin.ext
    match a with
    | ⟨0, _⟩ => show win0_0.index t (0 : Fin 2) * 3 + 1 * k.val = k.val; omega
    | ⟨1, _⟩ => show win0_0.index t (1 : Fin 2) * 128000 + 1 * (j 1).val = win0_2.index t (1 : Fin 2) * 128000 + 1 * (j 1).val; omega
  have hb : ∀ k : Fin 4, ((cfg0.win 1).blk t).view.emb (ix2 k (j 1)) = ix2 k ((((cfg0.win 2).blk t).view.emb j) 1) := by
    intro k; funext a; apply Fin.ext
    match a with
    | ⟨0, _⟩ => show win0_1.index t (0 : Fin 2) * 4 + 1 * k.val = k.val; omega
    | ⟨1, _⟩ => show win0_1.index t (1 : Fin 2) * 128000 + 1 * (j 1).val = win0_2.index t (1 : Fin 2) * 128000 + 1 * (j 1).val; omega
  have hc : (((cfg0.win 2).blk t).view.emb j) 0 = j 0 :=
    Fin.ext (by show win0_2.index t (0 : Fin 2) * 6 + 1 * (j 0).val = (j 0).val; omega)
  rw [ha, ha, ha, hb, hb, hb, hb, hc]
  rfl

/-- An index of the output array is in point `t`'s block iff each coordinate is in the block's range on its axis. -/
theorem mem_blk (t : Fin cfg0.N) (i : S6x5120000.Idx) :
    i ∈ ((cfg0.win 2).blk t).view.set ↔ ∀ a : Fin 2, win0_2.index t a * S6x128000.size a ≤ (i a).val
      ∧ (i a).val < win0_2.index t a * S6x128000.size a + S6x128000.size a := by
  show i ∈ ((View.whole main_v2).slice (win0_2.rect t)).set ↔ _
  rw [View.set_slice_whole, Rect.mem_set_unit]
  exact Iff.rfl

/-- THE COVER: column `i` of the output array lies in the block of point `i / 128000`. -/
theorem cover (i : S6x5120000.Idx) : ∃ t : Fin cfg0.N, (cfg0.win 2).flush t = true ∧ i ∈ ((cfg0.win 2).blk t).view.set := by
  have hi0 : (i 0).val < 6 := (i 0).isLt
  have hi1 : (i 1).val < 5120000 := (i 1).isLt
  have hN : cfg0.N = 40 := N_0
  let t : Fin cfg0.N := ⟨(i 1).val / 128000, by rw [hN]; omega⟩
  have ht : t.val = (i 1).val / 128000 := rfl
  obtain ⟨-, -, -, -, e4, e5⟩ := idx_facts t
  refine ⟨t, flush0_2 t, ?_⟩
  rw [mem_blk]
  intro a
  match a with
  | ⟨0, _⟩ => show win0_2.index t (0 : Fin 2) * 6 ≤ (i 0).val ∧ (i 0).val < win0_2.index t (0 : Fin 2) * 6 + 6; omega
  | ⟨1, _⟩ => show win0_2.index t (1 : Fin 2) * 128000 ≤ (i 1).val ∧ (i 1).val < win0_2.index t (1 : Fin 2) * 128000 + 128000; omega

/-- THE OUTPUT ARRAY after the run is `arrOf` of the input arrays as the region finds them. -/
theorem final (c : Dev nD) : (dats m 0 c).arrAt 2 cfg0.N = arrOf (V m c main_v0) (V m c main_v1) :=
  (dats m 0 c).arrAt_eq_of_cover 2 (arrOf (V m c main_v0) (V m c main_v1)) (fun t _ => flushed_eq m c t) cover

end Cert.KernelIdeal.Arr

end
-- ==== Proof.KWhole.lean ====
/-
  The kernel program around its region, and its run read as a value.

  Before the region the program transposes the scales [N, 3] → [3, N] and the quaternions [N, 4] → [4, N]; after it,
  it transposes the region's [6, N] output back to [N, 6]. A transposed matrix reads at `(j, i)` the operand at
  `(i, j)`. So the result at point `n`, entry `e`, is the region's output array at `(e, n)`, which is (KArray) the
  covariance entry `e` of the numbers in column `n` of the transposed inputs, that is of row `n` of the arguments:
  the specification `CovSpec.G` of the two argument arrays.
-/
import proofs.«105443_j4088808866444_2_alg».proof.Proof.KArray
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Arr Idealize.ShloMosaic Idealize.ShloMosaic.ValueIdx Cert.CovSpec
open Idealize.ShloMosaic.TcCoe Idealize.SL.Sem Idealize.ShloMosaic.StableHlo

variable (m : (ℓ : Loc nD τ sig) → Buf (Elt Ideal) ℓ) (ρ : Dev nD → PrngReg)

/-- The scales as the region finds them: the argument, transposed. -/
theorem V_v0 (c : Dev nD) : (V m c main_v0 : S3x5120000.Idx → EReal)
    = transpose S3x5120000 [1, 0] (m ((c : Thread nD τ).loc main_arg0)) transposes_S5120000x3_S3x5120000_1_0 := by
  show StableHlo.after hostOps0 (fun b => m (c, b)) (Proc.devRef .tc main_v0) = _
  after_results

/-- The quaternions as the region finds them: the argument, transposed. -/
theorem V_v1 (c : Dev nD) : (V m c main_v1 : S4x5120000.Idx → EReal)
    = transpose S4x5120000 [1, 0] (m ((c : Thread nD τ).loc main_arg1)) transposes_S5120000x4_S4x5120000_1_0 := by
  show StableHlo.after hostOps0 (fun b => m (c, b)) (Proc.devRef .tc main_v1) = _
  after_results

/-- The program's result after the lines that follow the region: the region's output array, transposed. -/
theorem tail_v3 (c : Dev nD) : (Pipeline.afterTail₀ cfgs (dats m) 0 (V0 m) [hostOps1] c main_v3 : S5120000x6.Idx → EReal)
    = transpose S5120000x6 [1, 0] ((dats m 0 c).arrAt 2 cfg0.N) transposes_S6x5120000_S5120000x6_1_0 := by
  unfold Pipeline.afterTail₀
  show StableHlo.after hostOps1 _ (Proc.devRef .tc main_v3) = _
  after_results
  exact congrArg (fun x => transpose S5120000x6 [1, 0] x transposes_S6x5120000_S5120000x6_1_0)
    (Pipeline.withArrays_arr spec0 launch0.win.arr_inj c _ _ 2)

/-- The channel-major function of the transposed arguments, transposed back, is the specification: at point `n`,
    entry `e`, the transposed output reads `arrOf` at `(e, n)`, whose seven inputs are the transposed arrays at
    `(j, n)`, that is the arguments at `(n, j)`. -/
theorem arrOf_transpose (a0 : S5120000x3.Idx → EReal) (a1 : S5120000x4.Idx → EReal)
    (h0 : S5120000x3.Transposes [1, 0] S3x5120000) (h1 : S5120000x4.Transposes [1, 0] S4x5120000)
    (h2 : S6x5120000.Transposes [1, 0] S5120000x6) :
    transpose S5120000x6 [1, 0] (arrOf (transpose S3x5120000 [1, 0] a0 h0) (transpose S4x5120000 [1, 0] a1 h1)) h2 = G a0 a1 := by
  funext i
  obtain ⟨n, e, rfl⟩ : ∃ (n : Fin 5120000) (e : Fin 6), i = ix2 n e := ⟨i 0, i 1, eq_ix2 i⟩
  rw [transpose_ix2_apply]
  show entry (transpose S3x5120000 [1, 0] a0 h0 (ix2 0 n)) (transpose S3x5120000 [1, 0] a0 h0 (ix2 1 n))
      (transpose S3x5120000 [1, 0] a0 h0 (ix2 2 n))
      (transpose S4x5120000 [1, 0] a1 h1 (ix2 0 n)) (transpose S4x5120000 [1, 0] a1 h1 (ix2 1 n))
      (transpose S4x5120000 [1, 0] a1 h1 (ix2 2 n)) (transpose S4x5120000 [1, 0] a1 h1 (ix2 3 n)) e
    = entry (a0 (ix2 n 0)) (a0 (ix2 n 1)) (a0 (ix2 n 2)) (a1 (ix2 n 0)) (a1 (ix2 n 1)) (a1 (ix2 n 2)) (a1 (ix2 n 3)) e
  rw [transpose_ix2_apply a0 h0 0 n, transpose_ix2_apply a0 h0 1 n, transpose_ix2_apply a0 h0 2 n,
    transpose_ix2_apply a1 h1 0 n, transpose_ix2_apply a1 h1 1 n, transpose_ix2_apply a1 h1 2 n,
    transpose_ix2_apply a1 h1 3 n]

/-- THE RESULT, index by index: the specification of the two argument arrays. -/
theorem result_eq (c : Dev nD) : (Pipeline.afterTail₀ cfgs (dats m) 0 (V0 m) [hostOps1] c main_v3 : S5120000x6.Idx → EReal)
    = G (m ((c : Thread nD τ).loc main_arg0)) (m ((c : Thread nD τ).loc main_arg1)) := by
  rw [tail_v3, final, V_v0, V_v1]
  exact arrOf_transpose _ _ _ _ _

/-- THE KERNEL PROGRAM'S RUN, as a value: every weakly fair execution terminates with the result at the
    specification of the argument arrays and the arguments unchanged. -/
theorem run : θ_run defs (onTc (τ := τ) (main (F := Ideal))) ⟨m, fun _ => 0, ρ⟩ (fun r => ∀ c : Dev nD,
      r.2.mem ((c.tc : Thread nD τ).loc main_v3) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefRead.lean ====
/-
  The reference's result read at an index.

  Per point `n` the reference divides the quaternion `q = (r, x, y, z)` by the square root of `r² + x² + y² + z²`,
  forms the nine rotation entries from the divided components, scales column `j` of the rotation by scale `j`
  (`L = R · diag s`), contracts `L` with itself over the columns (`L Lᵀ`), and keeps the six upper-triangle
  entries. The run states its result as five functions composed: the divided quaternion array (`normed`), its four
  columns as vectors (`col0` … `col3`), the scaled rotation (`scaledRot`), the contraction (`gram`) and the kept entries
  (`upper`). This file reads each of them at an index given by coordinates — `normed` at `(n, k)`, a column at `n`,
  `scaledRot` at `(n, i, j)`, `gram` at `(n, i, k)`, `upper` at `(n, e)` — for ANY arrays they are applied to, and then
  the composition at `(n, e)`, which is `entryDiv` of point `n`'s scales and quaternion at entry `e`.

  First the single data-movement steps over arrays of the literal shapes (a column of an `[N, 4]` array, an `[N]`
  vector as an `[N, 1]` column, nine or six such columns side by side, `[N, 9]` read as `[N, 3, 3]`, the scales spread
  over the rows, one entry of an `[N, 3, 3]` array), then the three forms a rotation entry takes, then the contraction
  over the columns, and last the five functions themselves.
-/
import proofs.«105443_j4088808866444_2_alg».proof.Proof.RefRun
import proofs.«105443_j4088808866444_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Staged Idealize.ShloMosaic Idealize.ShloMosaic.TcCoe
  Idealize.SL.Sem Idealize.ShloMosaic.StableHlo Idealize.ShloMosaic.ValueIdx Cert.CovSpec
open scoped BigOperators

/-! ## Single operations read at an index -/

/-- The host square root, read at an index, is the extended-real square root of the element. -/
theorem hostSqrt_apply {s : Shape} {φ : FTy} (x : FVec Ideal s φ) (i : s.Idx) :
    Host.sqrt x i = Ideal.sqrt (x i) := rfl

/-- An `[N]` vector written as an `[N, 1]` column, read at `(n, 0)`, is the vector at `n`. -/
theorem piece_apply {α : Type} (E : S5120000.Idx → α) (n : Fin 5120000) :
    broadcastInDim S5120000x1 ![0] bcast_S5120000_S5120000x1_0 E (ix2 n (0 : Fin 1)) = E (ix1 n) :=
  broadcastInDim_apply _ _ _ (ix2 n (0 : Fin 1)) (ix1 n) (fun a => match a with | ⟨0, _⟩ => rfl)

/-- A scalar constant spread over the points reads its word everywhere. -/
theorem splat_apply (b : BitVec 32) (n : Fin 5120000) :
    broadcastInDim S5120000 ![] bcast_S_S5120000 (constant (F := Ideal) S_ .f32 b) (ix1 n) = Ideal.ofBits .f32 b := by
  rw [broadcastInDim_scalar_apply]; rfl

/-- Column `c` of an `[N, 4]` array, as an `[N]` vector, read at point `n`: the array at `(n, c)`. -/
theorem col_apply (X : S5120000x4.Idx → EReal) (c : Nat) (hc : c < 4) (h : S5120000x4.Slices ![0, c] S5120000x1)
    (n : Fin 5120000) :
    shapeCast S5120000 (extractStridedSlice S5120000x1 ![0, c] X h) shapeCasts_S5120000x1_S5120000 (ix1 n)
      = X (ix2 n ⟨c, hc⟩) := by
  rw [shapeCast_apply _ _ (ix1 n) (ix2 n (0 : Fin 1)) (by
    rw [Shape.rowMajor_val_two, Shape.rowMajor_val_one]
    show n.val * 1 + 0 = n.val
    omega)]
  exact slice2_axis1_apply c X h n 0 ⟨c, hc⟩ (by simp)

/-- Nine `[N, 1]` columns set side by side: column `c` of the result is piece `c`. -/
theorem cat9_apply (p0 p1 p2 p3 p4 p5 p6 p7 p8 : S5120000x1.Idx → EReal) (n : Fin 5120000) (c : Fin 9) :
    concatenate S5120000x9 1 [⟨S5120000x1, p0⟩, ⟨S5120000x1, p1⟩, ⟨S5120000x1, p2⟩, ⟨S5120000x1, p3⟩, ⟨S5120000x1, p4⟩, ⟨S5120000x1, p5⟩, ⟨S5120000x1, p6⟩, ⟨S5120000x1, p7⟩, ⟨S5120000x1, p8⟩] concatenates_S5120000x1_S5120000x1_S5120000x1_S5120000x1_S5120000x1_S5120000x1_S5120000x1_S5120000x1_S5120000x1_S5120000x9_d1 (ix2 n c)
      = (![p0, p1, p2, p3, p4, p5, p6, p7, p8] : Fin 9 → S5120000x1.Idx → EReal) c (ix2 n (0 : Fin 1)) :=
  concatenate_ofFn_unit_apply (t := S5120000x9) (s₁ := S5120000x1) 1 ![p0, p1, p2, p3, p4, p5, p6, p7, p8]
    concatenates_S5120000x1_S5120000x1_S5120000x1_S5120000x1_S5120000x1_S5120000x1_S5120000x1_S5120000x1_S5120000x1_S5120000x9_d1
    rfl rfl (ix2 n c) c rfl (ix2 n (0 : Fin 1)) (fun b hb => match b with
      | ⟨0, _⟩ => rfl
      | ⟨1, _⟩ => absurd rfl hb)

/-- Six `[N, 1]` columns set side by side: column `e` of the result is piece `e`. -/
theorem cat6_apply (p0 p1 p2 p3 p4 p5 : S5120000x1.Idx → EReal) (n : Fin 5120000) (e : Fin 6) :
    concatenate S5120000x6 1 [⟨S5120000x1, p0⟩, ⟨S5120000x1, p1⟩, ⟨S5120000x1, p2⟩, ⟨S5120000x1, p3⟩, ⟨S5120000x1, p4⟩, ⟨S5120000x1, p5⟩] concatenates_S5120000x1_S5120000x1_S5120000x1_S5120000x1_S5120000x1_S5120000x1_S5120000x6_d1 (ix2 n e)
      = (![p0, p1, p2, p3, p4, p5] : Fin 6 → S5120000x1.Idx → EReal) e (ix2 n (0 : Fin 1)) :=
  concatenate_ofFn_unit_apply (t := S5120000x6) (s₁ := S5120000x1) 1 ![p0, p1, p2, p3, p4, p5]
    concatenates_S5120000x1_S5120000x1_S5120000x1_S5120000x1_S5120000x1_S5120000x1_S5120000x6_d1
    rfl rfl (ix2 n e) e rfl (ix2 n (0 : Fin 1)) (fun b hb => match b with
      | ⟨0, _⟩ => rfl
      | ⟨1, _⟩ => absurd rfl hb)

/-- An `[N, 9]` array read as `[N, 3, 3]`: entry `(n, i, j)` is column `3 i + j` of row `n`. -/
theorem reshape33_apply (X : S5120000x9.Idx → EReal) (n : Fin 5120000) (i j : Fin 3) :
    shapeCast S5120000x3x3 X shapeCasts_S5120000x9_S5120000x3x3 (ix3 n i j)
      = X (ix2 n ⟨3 * i.val + j.val, by have := i.isLt; have := j.isLt; omega⟩) := by
  refine shapeCast_apply _ _ (ix3 n i j) (ix2 n ⟨3 * i.val + j.val, by have := i.isLt; have := j.isLt; omega⟩) ?_
  rw [Shape.rowMajor_val_two, Shape.rowMajor_val_three]
  show n.val * 9 + (3 * i.val + j.val) = (n.val * 3 + i.val) * 3 + j.val
  omega

/-- The scales spread over the rows of the `3 × 3` matrix: entry `(n, i, j)` is scale `j` of point `n`. -/
theorem scales_apply (a0 : S5120000x3.Idx → EReal) (n : Fin 5120000) (i j : Fin 3) :
    broadcastInDim S5120000x3x3 ![0, 1, 2] bcast_S5120000x1x3_S5120000x3x3_0_1_2
        (broadcastInDim S5120000x1x3 ![0, 2] bcast_S5120000x3_S5120000x1x3_0_2 a0) (ix3 n i j) = a0 (ix2 n j) := by
  rw [broadcastInDim_apply _ _ _ (ix3 n i j) (ix3 n (0 : Fin 1) j)
      (fun a => match a with | ⟨0, _⟩ => rfl | ⟨1, _⟩ => rfl | ⟨2, _⟩ => rfl),
    broadcastInDim_apply _ _ _ (ix3 n (0 : Fin 1) j) (ix2 n j) (fun a => match a with | ⟨0, _⟩ => rfl | ⟨1, _⟩ => rfl)]

/-- Entry `(i, k)` of an `[N, 3, 3]` array, as an `[N]` vector, read at point `n`: the array at `(n, i, k)`. -/
theorem entry_apply (X : S5120000x3x3.Idx → EReal) (i k : Nat) (hi : i < 3) (hk : k < 3)
    (h : S5120000x3x3.Slices ![0, i, k] S5120000x1x1) (n : Fin 5120000) :
    shapeCast S5120000 (extractStridedSlice S5120000x1x1 ![0, i, k] X h) shapeCasts_S5120000x1x1_S5120000 (ix1 n)
      = X (ix3 n ⟨i, hi⟩ ⟨k, hk⟩) := by
  rw [shapeCast_apply _ _ (ix1 n) (ix3 n (0 : Fin 1) (0 : Fin 1)) (by
    rw [Shape.rowMajor_val_three, Shape.rowMajor_val_one]
    show (n.val * 1 + 0) * 1 + 0 = n.val
    omega)]
  exact extractStridedSlice_apply _ X h _ (ix3 n ⟨i, hi⟩ ⟨k, hk⟩) (fun a => match a with
    | ⟨0, _⟩ => (Nat.zero_add _).symm
    | ⟨1, _⟩ => rfl
    | ⟨2, _⟩ => rfl)

/-- The rotation entries, written as nine `[N, 1]` columns, set side by side, read as `[N, 3, 3]` and scaled column by
    column: entry `(n, i, j)` is piece `3 i + j` at point `n` times scale `j` of point `n`. -/
theorem rotscale_apply (p0 p1 p2 p3 p4 p5 p6 p7 p8 : S5120000x1.Idx → EReal) (a0 : S5120000x3.Idx → EReal)
    (n : Fin 5120000) (i j : Fin 3) :
    mulf (F := Ideal) (φ := .f32) (shapeCast S5120000x3x3 (concatenate S5120000x9 1 [⟨S5120000x1, p0⟩, ⟨S5120000x1, p1⟩, ⟨S5120000x1, p2⟩, ⟨S5120000x1, p3⟩, ⟨S5120000x1, p4⟩, ⟨S5120000x1, p5⟩, ⟨S5120000x1, p6⟩, ⟨S5120000x1, p7⟩, ⟨S5120000x1, p8⟩] concatenates_S5120000x1_S5120000x1_S5120000x1_S5120000x1_S5120000x1_S5120000x1_S5120000x1_S5120000x1_S5120000x1_S5120000x9_d1) shapeCasts_S5120000x9_S5120000x3x3)
        (broadcastInDim S5120000x3x3 ![0, 1, 2] bcast_S5120000x1x3_S5120000x3x3_0_1_2
          (broadcastInDim S5120000x1x3 ![0, 2] bcast_S5120000x3_S5120000x1x3_0_2 a0)) (ix3 n i j)
      = (![![p0 (ix2 n (0 : Fin 1)), p1 (ix2 n (0 : Fin 1)), p2 (ix2 n (0 : Fin 1))],
            ![p3 (ix2 n (0 : Fin 1)), p4 (ix2 n (0 : Fin 1)), p5 (ix2 n (0 : Fin 1))],
            ![p6 (ix2 n (0 : Fin 1)), p7 (ix2 n (0 : Fin 1)), p8 (ix2 n (0 : Fin 1))]] : Fin 3 → Fin 3 → EReal) i j
          * a0 (ix2 n j) := by
  rw [mulf_apply, reshape33_apply, cat9_apply, scales_apply]
  refine congrArg (· * a0 (ix2 n j)) ?_
  fin_cases i <;> fin_cases j <;> rfl

/-- The six kept entries of an `[N, 3, 3]` array, each cut out as an `[N]` vector, written as an `[N, 1]` column and set
    side by side: column `e` at point `n` is the array at `(n, triRow e, triCol e)`. -/
theorem tri_apply (X : S5120000x3x3.Idx → EReal) (n : Fin 5120000) (e : Fin 6) :
    concatenate S5120000x6 1 [⟨S5120000x1, (broadcastInDim S5120000x1 ![0] bcast_S5120000_S5120000x1_0 (shapeCast S5120000 (extractStridedSlice S5120000x1x1 ![0, 0, 0] X slices_S5120000x3x3_S5120000x1x1_0_0_0) shapeCasts_S5120000x1x1_S5120000))⟩, ⟨S5120000x1, (broadcastInDim S5120000x1 ![0] bcast_S5120000_S5120000x1_0 (shapeCast S5120000 (extractStridedSlice S5120000x1x1 ![0, 0, 1] X slices_S5120000x3x3_S5120000x1x1_0_0_1) shapeCasts_S5120000x1x1_S5120000))⟩, ⟨S5120000x1, (broadcastInDim S5120000x1 ![0] bcast_S5120000_S5120000x1_0 (shapeCast S5120000 (extractStridedSlice S5120000x1x1 ![0, 0, 2] X slices_S5120000x3x3_S5120000x1x1_0_0_2) shapeCasts_S5120000x1x1_S5120000))⟩, ⟨S5120000x1, (broadcastInDim S5120000x1 ![0] bcast_S5120000_S5120000x1_0 (shapeCast S5120000 (extractStridedSlice S5120000x1x1 ![0, 1, 1] X slices_S5120000x3x3_S5120000x1x1_0_1_1) shapeCasts_S5120000x1x1_S5120000))⟩, ⟨S5120000x1, (broadcastInDim S5120000x1 ![0] bcast_S5120000_S5120000x1_0 (shapeCast S5120000 (extractStridedSlice S5120000x1x1 ![0, 1, 2] X slices_S5120000x3x3_S5120000x1x1_0_1_2) shapeCasts_S5120000x1x1_S5120000))⟩, ⟨S5120000x1, (broadcastInDim S5120000x1 ![0] bcast_S5120000_S5120000x1_0 (shapeCast S5120000 (extractStridedSlice S5120000x1x1 ![0, 2, 2] X slices_S5120000x3x3_S5120000x1x1_0_2_2) shapeCasts_S5120000x1x1_S5120000))⟩] concatenates_S5120000x1_S5120000x1_S5120000x1_S5120000x1_S5120000x1_S5120000x1_S5120000x6_d1 (ix2 n e)
      = X (ix3 n (triRow e) (triCol e)) := by
  rw [cat6_apply]
  fin_cases e
  · exact (piece_apply _ n).trans (entry_apply X 0 0 (by decide) (by decide) slices_S5120000x3x3_S5120000x1x1_0_0_0 n)
  · exact (piece_apply _ n).trans (entry_apply X 0 1 (by decide) (by decide) slices_S5120000x3x3_S5120000x1x1_0_0_1 n)
  · exact (piece_apply _ n).trans (entry_apply X 0 2 (by decide) (by decide) slices_S5120000x3x3_S5120000x1x1_0_0_2 n)
  · exact (piece_apply _ n).trans (entry_apply X 1 1 (by decide) (by decide) slices_S5120000x3x3_S5120000x1x1_0_1_1 n)
  · exact (piece_apply _ n).trans (entry_apply X 1 2 (by decide) (by decide) slices_S5120000x3x3_S5120000x1x1_0_1_2 n)
  · exact (piece_apply _ n).trans (entry_apply X 2 2 (by decide) (by decide) slices_S5120000x3x3_S5120000x1x1_0_2_2 n)

/-! ## The rotation entries as `[N]` vectors, read at a point

Three forms occur: `1 − 2 (a² + b²)` on the diagonal, `2 (a b − c d)` and `2 (a b + c d)` off it. -/

/-- A diagonal entry of the rotation at point `n`. -/
theorem diag_apply (a b : FVec Ideal S5120000 .f32) (n : Fin 5120000) :
    subf (broadcastInDim S5120000 ![] bcast_S_S5120000 (constant (F := Ideal) S_ .f32 0x3F800000#32))
        (mulf (broadcastInDim S5120000 ![] bcast_S_S5120000 (constant (F := Ideal) S_ .f32 0x40000000#32))
          (addf (mulf a a) (mulf b b))) (ix1 n)
      = one - two * (a (ix1 n) * a (ix1 n) + b (ix1 n) * b (ix1 n)) := by
  rw [subf_apply, mulf_apply, addf_apply, mulf_apply, mulf_apply, splat_apply, splat_apply]

/-- An off-diagonal entry with a difference, at point `n`. -/
theorem minus_apply (a b c d : FVec Ideal S5120000 .f32) (n : Fin 5120000) :
    mulf (broadcastInDim S5120000 ![] bcast_S_S5120000 (constant (F := Ideal) S_ .f32 0x40000000#32))
        (subf (mulf a b) (mulf c d)) (ix1 n)
      = two * (a (ix1 n) * b (ix1 n) - c (ix1 n) * d (ix1 n)) := by
  rw [mulf_apply, subf_apply, mulf_apply, mulf_apply, splat_apply]

/-- An off-diagonal entry with a sum, at point `n`. -/
theorem plus_apply (a b c d : FVec Ideal S5120000 .f32) (n : Fin 5120000) :
    mulf (broadcastInDim S5120000 ![] bcast_S_S5120000 (constant (F := Ideal) S_ .f32 0x40000000#32))
        (addf (mulf a b) (mulf c d)) (ix1 n)
      = two * (a (ix1 n) * b (ix1 n) + c (ix1 n) * d (ix1 n)) := by
  rw [mulf_apply, addf_apply, mulf_apply, mulf_apply, splat_apply]

/-- The scaled rotation built from four `[N]` vectors `r x y z` and the scales `a0`: at `(n, i, j)` it is rotation entry
    `(i, j)` of `(r n, x n, y n, z n)` times scale `j` of point `n`. -/
theorem L_apply (r x y z : FVec Ideal S5120000 .f32) (a0 : FVec Ideal S5120000x3 .f32) (n : Fin 5120000) (i j : Fin 3) :
    (mulf (F := Ideal) (φ := .f32) (shapeCast S5120000x3x3 (concatenate S5120000x9 1 [⟨S5120000x1, (broadcastInDim S5120000x1 ![0] bcast_S5120000_S5120000x1_0 (subf (broadcastInDim S5120000 ![] bcast_S_S5120000 (constant (F := Ideal) S_ .f32 0x3F800000#32)) (mulf (broadcastInDim S5120000 ![] bcast_S_S5120000 (constant (F := Ideal) S_ .f32 0x40000000#32)) (addf (mulf y y) (mulf z z)))))⟩, ⟨S5120000x1, (broadcastInDim S5120000x1 ![0] bcast_S5120000_S5120000x1_0 (mulf (broadcastInDim S5120000 ![] bcast_S_S5120000 (constant (F := Ideal) S_ .f32 0x40000000#32)) (subf (mulf x y) (mulf r z))))⟩, ⟨S5120000x1, (broadcastInDim S5120000x1 ![0] bcast_S5120000_S5120000x1_0 (mulf (broadcastInDim S5120000 ![] bcast_S_S5120000 (constant (F := Ideal) S_ .f32 0x40000000#32)) (addf (mulf x z) (mulf r y))))⟩, ⟨S5120000x1, (broadcastInDim S5120000x1 ![0] bcast_S5120000_S5120000x1_0 (mulf (broadcastInDim S5120000 ![] bcast_S_S5120000 (constant (F := Ideal) S_ .f32 0x40000000#32)) (addf (mulf x y) (mulf r z))))⟩, ⟨S5120000x1, (broadcastInDim S5120000x1 ![0] bcast_S5120000_S5120000x1_0 (subf (broadcastInDim S5120000 ![] bcast_S_S5120000 (constant (F := Ideal) S_ .f32 0x3F800000#32)) (mulf (broadcastInDim S5120000 ![] bcast_S_S5120000 (constant (F := Ideal) S_ .f32 0x40000000#32)) (addf (mulf x x) (mulf z z)))))⟩, ⟨S5120000x1, (broadcastInDim S5120000x1 ![0] bcast_S5120000_S5120000x1_0 (mulf (broadcastInDim S5120000 ![] bcast_S_S5120000 (constant (F := Ideal) S_ .f32 0x40000000#32)) (subf (mulf y z) (mulf r x))))⟩, ⟨S5120000x1, (broadcastInDim S5120000x1 ![0] bcast_S5120000_S5120000x1_0 (mulf (broadcastInDim S5120000 ![] bcast_S_S5120000 (constant (F := Ideal) S_ .f32 0x40000000#32)) (subf (mulf x z) (mulf r y))))⟩, ⟨S5120000x1, (broadcastInDim S5120000x1 ![0] bcast_S5120000_S5120000x1_0 (mulf (broadcastInDim S5120000 ![] bcast_S_S5120000 (constant (F := Ideal) S_ .f32 0x40000000#32)) (addf (mulf y z) (mulf r x))))⟩, ⟨S5120000x1, (broadcastInDim S5120000x1 ![0] bcast_S5120000_S5120000x1_0 (subf (broadcastInDim S5120000 ![] bcast_S_S5120000 (constant (F := Ideal) S_ .f32 0x3F800000#32)) (mulf (broadcastInDim S5120000 ![] bcast_S_S5120000 (constant (F := Ideal) S_ .f32 0x40000000#32)) (addf (mulf x x) (mulf y y)))))⟩] concatenates_S5120000x1_S5120000x1_S5120000x1_S5120000x1_S5120000x1_S5120000x1_S5120000x1_S5120000x1_S5120000x1_S5120000x9_d1) shapeCasts_S5120000x9_S5120000x3x3) (broadcastInDim S5120000x3x3 ![0, 1, 2] bcast_S5120000x1x3_S5120000x3x3_0_1_2 (broadcastInDim S5120000x1x3 ![0, 2] bcast_S5120000x3_S5120000x1x3_0_2 a0))) (ix3 n i j)
      = scaled (a0 (ix2 n 0)) (a0 (ix2 n 1)) (a0 (ix2 n 2)) (r (ix1 n)) (x (ix1 n)) (y (ix1 n)) (z (ix1 n)) i j := by
  refine (rotscale_apply _ _ _ _ _ _ _ _ _ _ n i j).trans ?_
  unfold scaled rot
  refine congrArg₂ (· * ·) ?_ ?_
  · fin_cases i <;> fin_cases j
    · exact (piece_apply _ n).trans (diag_apply y z n)
    · exact (piece_apply _ n).trans (minus_apply x y r z n)
    · exact (piece_apply _ n).trans (plus_apply x z r y n)
    · exact (piece_apply _ n).trans (plus_apply x y r z n)
    · exact (piece_apply _ n).trans (diag_apply x z n)
    · exact (piece_apply _ n).trans (minus_apply y z r x n)
    · exact (piece_apply _ n).trans (minus_apply x z r y n)
    · exact (piece_apply _ n).trans (plus_apply y z r x n)
    · exact (piece_apply _ n).trans (diag_apply x y n)
  · fin_cases j <;> rfl

/-! ## The einsum read at an index -/

/-- The einsum's dimension numbers: batch axis 0, contracting axis 2 of both operands. -/
abbrev D : DotDims S5120000x3x3 S5120000x3x3 S5120000x3x3 := dot_S5120000x3x3_S5120000x3x3_S5120000x3x3_2_2_1_1_0_0

/-- The contraction runs over the three columns. -/
abbrev cE : D.contr.Idx ≃ Fin 3 := contrEquiv1 D 3 rfl rfl

/-- At result entry `(n, i, k)` and column `c` the left operand is read at `(n, i, c)`. -/
theorem lhsIdx_eq (n : Fin 5120000) (i k c : Fin 3) : D.lhsIdx (ix3 n i k) (cE.symm c) = ix3 n i c := by
  funext a
  refine Fin.ext ?_
  match a with
  | ⟨0, _⟩ => simp [DotDims.lhsIdx, D, dot_S5120000x3x3_S5120000x3x3_S5120000x3x3_2_2_1_1_0_0]; rfl
  | ⟨1, _⟩ => simp [DotDims.lhsIdx, D, dot_S5120000x3x3_S5120000x3x3_S5120000x3x3_2_2_1_1_0_0]; rfl
  | ⟨2, _⟩ =>
    exact (D.lhsIdx_val_of_single (cl := (2 : Fin 3)) rfl (ix3 n i k) (cE.symm c)).trans
      (contrEquiv1_symm_val D 3 rfl rfl c)

/-- At result entry `(n, i, k)` and column `c` the right operand is read at `(n, k, c)`. -/
theorem rhsIdx_eq (n : Fin 5120000) (i k c : Fin 3) : D.rhsIdx (ix3 n i k) (cE.symm c) = ix3 n k c := by
  funext a
  refine Fin.ext ?_
  match a with
  | ⟨0, _⟩ => simp [DotDims.rhsIdx, D, dot_S5120000x3x3_S5120000x3x3_S5120000x3x3_2_2_1_1_0_0]; rfl
  | ⟨1, _⟩ => simp [DotDims.rhsIdx, D, dot_S5120000x3x3_S5120000x3x3_S5120000x3x3_2_2_1_1_0_0]; rfl
  | ⟨2, _⟩ =>
    exact (D.rhsIdx_val_of_single (cr := (2 : Fin 3)) rfl (ix3 n i k) (cE.symm c)).trans
      (contrEquiv1_symm_val D 3 rfl rfl c)

/-- The einsum of an `[N, 3, 3]` array with itself, read at `(n, i, k)`: the products of rows `i` and `k` of matrix `n`
    over the three columns, summed left to right. -/
theorem dot_apply (X : FVec Ideal S5120000x3x3 .f32) (n : Fin 5120000) (i k : Fin 3) :
    Host.dotGeneral D none X X (ix3 n i k)
      = X (ix3 n i 0) * X (ix3 n k 0) + X (ix3 n i 1) * X (ix3 n k 1) + X (ix3 n i 2) * X (ix3 n k 2) := by
  show FloatOps.dotGeneral D none .single X X (ix3 n i k) = _
  rw [Ideal.dotGeneral_apply, ← Equiv.sum_comp cE.symm, Fin.sum_univ_three]
  simp only [lhsIdx_eq, rhsIdx_eq]

/-! ## The five stage functions of the run, each read at an index -/

/-- The contents of buffer `b` on the extended reals: an array of the buffer's shape. -/
abbrev C (b : Ref sig .tc) : Type := (Proc.devRef .tc b : DevRef τ sig).ty.Contents (Elt Ideal)

/-- Component `k` of the quaternion of point `n`, divided by the square root of the quaternion's squared norm. -/
abbrev qd (a1 : C main_arg1) (n : Fin 5120000) (k : Fin 4) : EReal :=
  Ideal.div (a1 (ix2 n k)) (Ideal.sqrt (nrm2 (a1 (ix2 n 0)) (a1 (ix2 n 1)) (a1 (ix2 n 2)) (a1 (ix2 n 3))))

/-- The normalized quaternion array at `(n, k)`: component `k` over the square root of the sum of the four squares. -/
theorem normed_apply (a1 : C main_arg1) (n : Fin 5120000) (k : Fin 4) : normed a1 (ix2 n k) = qd a1 n k := by
  unfold normed
  rw [hostDivf_apply, broadcastInDim_apply _ _ _ (ix2 n k) (ix2 n (0 : Fin 1))
      (fun a => match a with | ⟨0, _⟩ => rfl | ⟨1, _⟩ => rfl),
    hostSqrt_apply, piece_apply, sumsq_apply]

/-- Column 0 of an `[N, 4]` array, as a vector, at point `n`. -/
theorem col0_apply (c5 : C main_v5) (n : Fin 5120000) : col0 c5 (ix1 n) = c5 (ix2 n 0) :=
  col_apply c5 0 (by decide) slices_S5120000x4_S5120000x1_0_0 n

/-- Column 1 at point `n`. -/
theorem col1_apply (c5 : C main_v5) (n : Fin 5120000) : col1 c5 (ix1 n) = c5 (ix2 n 1) :=
  col_apply c5 1 (by decide) slices_S5120000x4_S5120000x1_0_1 n

/-- Column 2 at point `n`. -/
theorem col2_apply (c5 : C main_v5) (n : Fin 5120000) : col2 c5 (ix1 n) = c5 (ix2 n 2) :=
  col_apply c5 2 (by decide) slices_S5120000x4_S5120000x1_0_2 n

/-- Column 3 at point `n`. -/
theorem col3_apply (c5 : C main_v5) (n : Fin 5120000) : col3 c5 (ix1 n) = c5 (ix2 n 3) :=
  col_apply c5 3 (by decide) slices_S5120000x4_S5120000x1_0_3 n

/-- The scaled rotation `L` at `(n, i, j)`: rotation entry `(i, j)` of the four component vectors at `n` times scale `j`
    of point `n`. -/
theorem scaledRot_apply (c7 : C main_v7) (c9 : C main_v9) (c11 : C main_v11) (c13 : C main_v13) (a0 : C main_arg0)
    (n : Fin 5120000) (i j : Fin 3) :
    scaledRot c7 c9 c11 c13 a0 (ix3 n i j)
      = scaled (a0 (ix2 n 0)) (a0 (ix2 n 1)) (a0 (ix2 n 2)) (c7 (ix1 n)) (c9 (ix1 n)) (c11 (ix1 n)) (c13 (ix1 n)) i j := by
  unfold scaledRot
  exact L_apply c7 c9 c11 c13 a0 n i j

/-- The contraction `L Lᵀ` at `(n, i, k)`: the products of rows `i` and `k` of matrix `n` over the three columns, summed
    left to right. -/
theorem gram_apply (c78 : FVec Ideal S5120000x3x3 .f32) (n : Fin 5120000) (i k : Fin 3) :
    gram (F := Ideal) c78 (ix3 n i k)
      = c78 (ix3 n i 0) * c78 (ix3 n k 0) + c78 (ix3 n i 1) * c78 (ix3 n k 1) + c78 (ix3 n i 2) * c78 (ix3 n k 2) := by
  unfold gram
  exact dot_apply c78 n i k

/-- The kept entries at `(n, e)`: the array at `(n, triRow e, triCol e)`. -/
theorem upper_apply (c79 : C main_v79) (n : Fin 5120000) (e : Fin 6) :
    upper c79 (ix2 n e) = c79 (ix3 n (triRow e) (triCol e)) := by
  unfold upper
  exact tri_apply c79 n e

/-- `L` of the divided quaternion at `(n, i, j)`. -/
theorem scaledRot_normed_apply (a0 : C main_arg0) (a1 : C main_arg1) (n : Fin 5120000) (i j : Fin 3) :
    scaledRot (col0 (normed a1)) (col1 (normed a1)) (col2 (normed a1)) (col3 (normed a1)) a0 (ix3 n i j)
      = scaled (a0 (ix2 n 0)) (a0 (ix2 n 1)) (a0 (ix2 n 2)) (qd a1 n 0) (qd a1 n 1) (qd a1 n 2) (qd a1 n 3) i j := by
  rw [scaledRot_apply, col0_apply, col1_apply, col2_apply, col3_apply, normed_apply, normed_apply, normed_apply,
    normed_apply]

/-- `L Lᵀ` of the divided quaternion at `(n, i, k)`: the covariance entry `(i, k)`. -/
theorem gram_normed_apply (a0 : C main_arg0) (a1 : C main_arg1) (n : Fin 5120000) (i k : Fin 3) :
    gram (scaledRot (col0 (normed a1)) (col1 (normed a1)) (col2 (normed a1)) (col3 (normed a1)) a0) (ix3 n i k)
      = cov (a0 (ix2 n 0)) (a0 (ix2 n 1)) (a0 (ix2 n 2)) (qd a1 n 0) (qd a1 n 1) (qd a1 n 2) (qd a1 n 3) i k := by
  rw [gram_apply, scaledRot_normed_apply, scaledRot_normed_apply, scaledRot_normed_apply, scaledRot_normed_apply,
    scaledRot_normed_apply, scaledRot_normed_apply]
  rfl

/-- The reference's result, read at point `n` and entry `e`, is the covariance entry of the divided quaternion. -/
theorem result_apply (a0 : C main_arg0) (a1 : C main_arg1) (i : S5120000x6.Idx) :
    upper (gram (scaledRot (col0 (normed a1)) (col1 (normed a1)) (col2 (normed a1)) (col3 (normed a1)) a0)) i
      = Cert.CovSpec.entryDiv (a0 (ix2 (i 0) 0)) (a0 (ix2 (i 0) 1)) (a0 (ix2 (i 0) 2))
          (a1 (ix2 (i 0) 0)) (a1 (ix2 (i 0) 1)) (a1 (ix2 (i 0) 2)) (a1 (ix2 (i 0) 3)) (i 1) := by
  obtain ⟨n, e, rfl⟩ : ∃ (n : Fin 5120000) (e : Fin 6), i = ix2 n e := ⟨i 0, i 1, eq_ix2 i⟩
  rw [upper_apply, gram_normed_apply]
  rfl

end Cert.ReferenceIdeal.RefValue

end
-- ==== Proof.lean ====
/-
  The certificate: the kernel that computes, for 5120000 points, the six upper-triangle entries of the covariance
  `(R · diag s)(R · diag s)ᵀ` of a scaled rotation, against its array-level reference.

  The kernel transposes the scales and quaternions to a channel-major layout, computes lane by lane on blocks of
  128000 points, and transposes back; it normalizes each quaternion by multiplying with the reciprocal square root
  of its squared norm. The reference divides by the square root of the squared norm, stacks the nine rotation
  entries, scales the columns, contracts `L` with itself over the column index and picks the six entries.

  On the extended reals the two agree wherever the squared norm is positive: both normalizations are the product
  with the inverse of the square root there (`CovSpec.mul_rsqrt_eq_div_sqrt`), and everything after the normalization
  is the same expression. At a zero quaternion they differ (`0 · ⊤ = 0` against the junk value of `0 / 0`), so the
  claim is stated under the precondition that no quaternion is zero — the domain on which the reference's own
  division is defined. Finiteness of the inputs is never used.

  The three frames: the two kernel programs' by their frame runs; the reference's is its run (read in five stages,
  RefRun) with the result dropped. The idealization rewrote nothing, so `preserves` has nothing to state.
-/
import proofs.«105443_j4088808866444_2_alg».proof.Defs
import proofs.«105443_j4088808866444_2_alg».proof.Proof.Gen.Kernel
import proofs.«105443_j4088808866444_2_alg».proof.Proof.Gen.Kernel.Skeleton
import proofs.«105443_j4088808866444_2_alg».proof.Proof.Gen.Kernel.Launch
import proofs.«105443_j4088808866444_2_alg».proof.Proof.Gen.Kernel.Points
import proofs.«105443_j4088808866444_2_alg».proof.Proof.Gen.Kernel.Frame
import proofs.«105443_j4088808866444_2_alg».proof.Proof.Gen.KernelIdeal
import proofs.«105443_j4088808866444_2_alg».proof.Proof.Gen.KernelIdeal.Skeleton
import proofs.«105443_j4088808866444_2_alg».proof.Proof.Gen.KernelIdeal.Launch
import proofs.«105443_j4088808866444_2_alg».proof.Proof.Gen.KernelIdeal.Points
import proofs.«105443_j4088808866444_2_alg».proof.Proof.Gen.KernelIdeal.Frame
import proofs.«105443_j4088808866444_2_alg».proof.Proof.Gen.ReferenceIdeal
import proofs.«105443_j4088808866444_2_alg».proof.Proof.Gen.Pre_finite_inputs
import proofs.«105443_j4088808866444_2_alg».proof.Proof.RefRun
import proofs.«105443_j4088808866444_2_alg».proof.Proof.Spec
import proofs.«105443_j4088808866444_2_alg».proof.Proof.PreRead
import proofs.«105443_j4088808866444_2_alg».proof.Proof.KWhole
import proofs.«105443_j4088808866444_2_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

namespace Claims

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- Both programs end with the result at the covariance entries of the normalized quaternion: the kernel's run gives
    `CovSpec.G` of its arguments; the reference's run gives the same entries with the quaternion divided by the
    square root of its squared norm, which is `G` where that squared norm is positive — everywhere, by the precondition. -/
theorem algebraic : Cert.algebraic_KernelIdeal_ReferenceIdeal := by
  intro m ρ m' ρ' hpre hagree
  refine ⟨fun c => Cert.CovSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Whole.run m ρ, ?_⟩
  refine (θ_run Cert.ReferenceIdeal.defs _ _).mono (fun _ h c => ⟨(h c).1.trans ?_, (h c).2⟩)
    (Cert.ReferenceIdeal.Staged.run (F := Ideal) m' ρ')
  funext i
  rw [Cert.ReferenceIdeal.RefValue.result_apply]
  show Cert.CovSpec.entryDiv
      (m' ((c.tc : Thread Cert.ReferenceIdeal.nD Cert.ReferenceIdeal.τ).loc Cert.ReferenceIdeal.main_arg0) (ix2 (i 0) 0))
      (m' ((c.tc : Thread Cert.ReferenceIdeal.nD Cert.ReferenceIdeal.τ).loc Cert.ReferenceIdeal.main_arg0) (ix2 (i 0) 1))
      (m' ((c.tc : Thread Cert.ReferenceIdeal.nD Cert.ReferenceIdeal.τ).loc Cert.ReferenceIdeal.main_arg0) (ix2 (i 0) 2))
      (m' ((c.tc : Thread Cert.ReferenceIdeal.nD Cert.ReferenceIdeal.τ).loc Cert.ReferenceIdeal.main_arg1) (ix2 (i 0) 0))
      (m' ((c.tc : Thread Cert.ReferenceIdeal.nD Cert.ReferenceIdeal.τ).loc Cert.ReferenceIdeal.main_arg1) (ix2 (i 0) 1))
      (m' ((c.tc : Thread Cert.ReferenceIdeal.nD Cert.ReferenceIdeal.τ).loc Cert.ReferenceIdeal.main_arg1) (ix2 (i 0) 2))
      (m' ((c.tc : Thread Cert.ReferenceIdeal.nD Cert.ReferenceIdeal.τ).loc Cert.ReferenceIdeal.main_arg1) (ix2 (i 0) 3)) (i 1) = _
  rw [(hagree c).1, (hagree c).2]
  exact (Cert.CovSpec.entry_eq_entryDiv _ _ _ _ _ _ _ (Cert.PreRead.nrm2_pos _ _ (hpre c) (i 0)) (i 1)).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
